-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128x128 : Shape := ⟨4, ![32, 256, 128, 128]⟩
abbrev S16x256 : Shape := ⟨2, ![16, 256]⟩
abbrev S256x16 : Shape := ⟨2, ![256, 16]⟩
abbrev S_ : Shape := ⟨0, ![]⟩

class Facts : Prop where
  bcast_S_S32x256x128x128 : S_.BroadcastsInDim S32x256x128x128 (![] : Fin 0 → Fin S32x256x128x128.rank)
  reducesTo_S32x256x128x128_S_d0_1_2_3 : S32x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x128x128 .f32) (main_arg1 : FVec F S16x256 .f32) (main_arg2 : FVec F S256x16 .f32) : IVec S_ 1 :=
  let main_v0 : FVec F S32x256x128x128 .f32 := Host.absf main_arg0
  let main_cst : FVec F S_ .f32 := constant S_ .f32 0x7F800000#32
  let main_v1 : FVec F S32x256x128x128 .f32 := broadcastInDim S32x256x128x128 ![] bcast_S_S32x256x128x128 main_cst
  let main_v2 : IVec S32x256x128x128 1 := cmpf .olt main_v0 main_v1
  let main_c : IVec S_ 1 := constantI S_ 1 1#1
  let main_v3 : IVec S_ 1 := (fun x v => Host.reduce IntOp.andi x v reducesTo_S32x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x128x128 : Shape := ⟨4, ![32, 256, 128, 128]⟩
abbrev S16x256 : Shape := ⟨2, ![16, 256]⟩
abbrev S256x16 : Shape := ⟨2, ![256, 16]⟩
abbrev S32x256 : Shape := ⟨2, ![32, 256]⟩
abbrev S8x256x16x128 : Shape := ⟨4, ![8, 256, 16, 128]⟩
abbrev S8x256 : Shape := ⟨2, ![8, 256]⟩
abbrev S8x256x128 : Shape := ⟨3, ![8, 256, 128]⟩
abbrev S8x16 : Shape := ⟨2, ![8, 16]⟩
abbrev S32x256x1 : Shape := ⟨3, ![32, 256, 1]⟩
abbrev S32x256x128 : Shape := ⟨3, ![32, 256, 128]⟩
abbrev S8x256x8x128 : Shape := ⟨4, ![8, 256, 8, 128]⟩
abbrev S8x256x1x128 : Shape := ⟨4, ![8, 256, 1, 128]⟩

abbrev nBuf : Space → Nat
  | .hbm => 7
  | .vmem => 13
  | .smem => 0
  | _ => 0

abbrev bufTy : (tb : Table) → Fin (tcTables nBuf tb) → BufTy
  | .hbm, ⟨0, _⟩ => ⟨S32x256x128x128, .f32⟩
  | .hbm, ⟨1, _⟩ => ⟨S16x256, .f32⟩
  | .hbm, ⟨2, _⟩ => ⟨S256x16, .f32⟩
  | .hbm, ⟨3, _⟩ => ⟨S32x256, .f32⟩
  | .hbm, ⟨4, _⟩ => ⟨S32x256x1, .f32⟩
  | .hbm, ⟨5, _⟩ => ⟨S32x256x128, .f32⟩
  | .hbm, ⟨6, _⟩ => ⟨S32x256x128x128, .f32⟩
  | .local _ .vmem, ⟨0, _⟩ => ⟨S8x256x16x128, .f32⟩
  | .local _ .vmem, ⟨1, _⟩ => ⟨S8x256x16x128, .f32⟩
  | .local _ .vmem, ⟨2, _⟩ => ⟨S16x256, .f32⟩
  | .local _ .vmem, ⟨3, _⟩ => ⟨S256x16, .f32⟩
  | .local _ .vmem, ⟨4, _⟩ => ⟨S8x256, .f32⟩
  | .local _ .vmem, ⟨5, _⟩ => ⟨S8x256, .f32⟩
  | .local _ .vmem, ⟨6, _⟩ => ⟨S8x256x128, .f32⟩
  | .local _ .vmem, ⟨7, _⟩ => ⟨S8x256x8x128, .f32⟩
  | .local _ .vmem, ⟨8, _⟩ => ⟨S8x256x8x128, .f32⟩
  | .local _ .vmem, ⟨9, _⟩ => ⟨S8x256x128, .f32⟩
  | .local _ .vmem, ⟨10, _⟩ => ⟨S8x256x128, .f32⟩
  | .local _ .vmem, ⟨11, _⟩ => ⟨S8x256x8x128, .f32⟩
  | .local _ .vmem, ⟨12, _⟩ => ⟨S8x256x8x128, .f32⟩
  | _, _ => ⟨S32x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_10 : BitVec 32 := 0#32
  let v12 : BitVec 1 := Scalar.cmpi .ne v11 c0_i32_10
  v12

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x256x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x16x128_S8x256x16x128_0_0_0_0 : ∀ a, (![0, 0, 0, 0] : Fin 4 → Nat) a + S8x256x16x128.size a ≤ S8x256x16x128.size a
  h_S8x256x16x128 : 0 < S8x256x16x128.numel
  reduces_S8x256x16x128_S8x256x128 : S8x256x16x128.Reduces [2] S8x256x128
  reduces_S8x256x128_S8x256 : S8x256x128.Reduces [2] S8x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  inb_S8x256_S8x256_0_0 : ∀ a, (![0, 0] : Fin 2 → Nat) a + S8x256.size a ≤ S8x256.size a
  h_S8x256 : 0 < S8x256.numel
  bcast_S32x256_S32x256x1_0_1 : S32x256.BroadcastsInDim S32x256x1 (![0, 1] : Fin 2 → Fin S32x256x1.rank)
  bcast_S32x256x1_S32x256x128_0_1_2 : S32x256x1.BroadcastsInDim S32x256x128 (![0, 1, 2] : Fin 3 → Fin S32x256x128.rank)
  inb_S8x256x8x128_S8x256x8x128_0_0_0_0 : ∀ a, (![0, 0, 0, 0] : Fin 4 → Nat) a + S8x256x8x128.size a ≤ S8x256x8x128.size a
  h_S8x256x8x128 : 0 < S8x256x8x128.numel
  shapeCasts_S8x256x128_S8x256x1x128 : S8x256x128.ShapeCasts S8x256x1x128
  broadcasts_S8x256x1x128_S8x256x8x128 : S8x256x1x128.Broadcasts S8x256x8x128
  dot_S8x256_S16x256_S8x16_1_1_0_0_n_n_wf : DotDims.WF S8x256 S16x256 S8x16 [1] [1] [0] [0] [] []
  dot_S8x16_S256x16_S8x256_1_1_0_0_n_n_wf : DotDims.WF S8x16 S256x16 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x16x128.size a ≤ S32x256x128x128.size a
  hwx0_0 : ∀ i : grid0.Coords, EltTy.bits .f32 = 32 ∨ (Rect.block (s := S32x256x128x128) S8x256x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S32x256.size a
  hwx0_3 : ∀ i : grid0.Coords, EltTy.bits .f32 = 32 ∨ (Rect.block (s := S32x256) S8x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x8x128.size a ≤ S32x256x128x128.size a
  hwx1_0 : ∀ i : grid1.Coords, EltTy.bits .f32 = 32 ∨ (Rect.block (s := S32x256x128x128) S8x256x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x128.size a ≤ S32x256x128.size a
  hwx1_1 : ∀ i : grid1.Coords, EltTy.bits .f32 = 32 ∨ (Rect.block (s := S32x256x128) S8x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x8x128.size a ≤ S32x256x128x128.size a
  hwx1_2 : ∀ i : grid1.Coords, EltTy.bits .f32 = 32 ∨ (Rect.block (s := S32x256x128x128) S8x256x8x128.size (cc1_transform_2 i) (hinb1_2 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S256x16_S8x256_1_1_0_0_n_n : DotDims S8x16 S256x16 S8x256 where
  lhsContracting := [1]
  rhsContracting := [1]
  lhsNonContracting := [0]
  rhsNonContracting := [0]
  lhsBatch := []
  rhsBatch := []
  wf := dot_S8x16_S256x16_S8x256_1_1_0_0_n_n_wf

abbrev win0_0 : Pipeline.Window sig grid0 :=
  Pipeline.Window.ofSpec (Memref.whole main_arg0) S8x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S8x256x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x256x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x128x128 : Shape := ⟨4, ![32, 256, 128, 128]⟩
abbrev S16x256 : Shape := ⟨2, ![16, 256]⟩
abbrev S256x16 : Shape := ⟨2, ![256, 16]⟩
abbrev S_ : Shape := ⟨0, ![]⟩
abbrev S32x256 : Shape := ⟨2, ![32, 256]⟩
abbrev S32x16 : Shape := ⟨2, ![32, 16]⟩
abbrev S32x256x1x1 : Shape := ⟨4, ![32, 256, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x256x128x128, .f32⟩
  | .hbm, ⟨1, _⟩ => ⟨S16x256, .f32⟩
  | .hbm, ⟨2, _⟩ => ⟨S256x16, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256x1x1, .f32⟩
  | .hbm, ⟨22, _⟩ => ⟨S32x256x128x128, .f32⟩
  | .hbm, ⟨23, _⟩ => ⟨S32x256x128x128, .f32⟩
  | _, _ => ⟨S32x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S32x256x128x128_S32x256_d2_3 : S32x256x128x128.ReducesTo [2, 3] S32x256
  h_S_ : 0 < S_.numel
  bcast_S_S32x256 : S_.BroadcastsInDim S32x256 (![] : Fin 0 → Fin S32x256.rank)
  bcast_S_S32x16 : S_.BroadcastsInDim S32x16 (![] : Fin 0 → Fin S32x16.rank)
  bcast_S32x256_S32x256x1x1_0_1 : S32x256.BroadcastsInDim S32x256x1x1 (![0, 1] : Fin 2 → Fin S32x256x1x1.rank)
  bcast_S32x256x1x1_S32x256x128x128_0_1_2_3 : S32x256x1x1.BroadcastsInDim S32x256x128x128 (![0, 1, 2, 3] : Fin 4 → Fin S32x256x128x128.rank)
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

class Facts : Prop extends Facts₀ where

variable [Facts]
-- ==== Proof.Region0RunsBits.lean ====
/-
  Region 0 (the pooling kernel with the two products and the gate), what its three control cases share.

  The grid is 4 batch tiles by 8 height steps, point t = 8 * (batch tile) + (height step). The body resets its
  accumulator at height step 0 (t % 8 = 0), adds the block's sums over height at every step, and at height step 7
  (t % 8 = 7) computes the gates of the batch tile into the output block; at the other steps it stores nothing into
  the output block, which is then neither written back nor read at the next point. The accumulator is a scratch
  buffer the kernel keeps from one point to the next.
  Everything is stated at a parameter V: the TensorCore's buffer contents when the region is entered.
-/
import proofs.«155808_j50156628082926_2_alg».proof.Proof.Gen.Kernel.Launch
import proofs.«155808_j50156628082926_2_alg».proof.Proof.Gen.Kernel.Skeleton
import proofs.«155808_j50156628082926_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, from the grid coordinates -/

/-- "this is height step 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is height step 7": the gates are computed and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from height step 7 the body stores nothing into the output block, -/
theorem idleAt0_3 : ∀ t : Fin cfg0.N, ¬cond0_1 (grid0.coords t) → cfg0.idle 3 (grid0.coords t) = true := by decide +kernel
/-- and the block is not written back there. -/
theorem noFlush0_3 : ∀ t : Fin cfg0.N, ¬cond0_1 (grid0.coords t) → (cfg0.win 3).flush t = false := by decide +kernel
/-- At height step 7 it does. -/
theorem liveAt0_3 : ∀ t : Fin cfg0.N, cond0_1 (grid0.coords t) → cfg0.idle 3 (grid0.coords t) = false := by decide +kernel

/-! ## The staging and scratch memrefs -/

abbrev VO0_3 : View sig .tc .vmem S8x256 .f32 := (Memref.whole cc0_stg3_0 : Memref sig .tc .vmem S8x256 .f32).view
abbrev ms0_0 (t : Fin cfg0.N) : Memref sig .tc .vmem S8x256x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S8x256x128 .f32 := Memref.whole cc0_scratch0
abbrev VS0_0 : View sig .tc .vmem S8x256x128 .f32 := scM0_0.view

/-- The region's standing invariant with the accumulator as a memref owned at some contents: the scoped buffers no
    window stages, each at anything, and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.Kernel.Hand

end
-- ==== Proof.Region0RunABits.lean ====
/-
  Region 0, the case of height step 0: the accumulator is reset to zero and the block's sums over height are added;
  nothing is stored into the output block, and the two weight blocks are not read.
-/
import proofs.«155808_j50156628082926_2_alg».proof.Proof.Region0RunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator in this case, with the proof that on whole memrefs — the inputs' at
    their contents, the output's at contents handed back untouched, the accumulator at anything — the body runs to the
    continuation holding all but the accumulator as they were and the accumulator with those pieces written. -/
noncomputable def kernelRun0_A (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i)
    (x0 : Vec F S8x256x16x128 .f32) (x1 : Vec F S16x256 .f32) (x2 : Vec F S256x16 .f32) :
    Σ' (L3 : List (View.Piece (Elt F) S8x256 .f32)), { LS0 : List (View.Piece (Elt F) S8x256x128 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨[], ?_, fun xi3 E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Region0RunBBits.lean ====
/-
  Region 0, the case of a height step strictly between the first and the last: the block's sums over height are added
  to the accumulator the point before left; nothing is stored into the output block, and the weight blocks are not read.
-/
import proofs.«155808_j50156628082926_2_alg».proof.Proof.Region0RunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator in this case (the accumulator entering at the contents xs0). -/
noncomputable def kernelRun0_B (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i)
    (x0 : Vec F S8x256x16x128 .f32) (x1 : Vec F S16x256 .f32) (x2 : Vec F S256x16 .f32) (xs0 : Vec F S8x256x128 .f32) :
    Σ' (L3 : List (View.Piece (Elt F) S8x256 .f32)), { LS0 : List (View.Piece (Elt F) S8x256x128 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨[], ?_, fun xi3 E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Region0RunCBits.lean ====
/-
  Region 0, the case of the last height step: the block's sums over height are added to the accumulator, and the
  gates of the batch tile — the accumulator summed over width and scaled, the two products, the rectifier, the
  logistic function — are stored into the output block.
-/
import proofs.«155808_j50156628082926_2_alg».proof.Proof.Region0RunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator in this case. -/
noncomputable def kernelRun0_C (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i)
    (x0 : Vec F S8x256x16x128 .f32) (x1 : Vec F S16x256 .f32) (x2 : Vec F S256x16 .f32) (xs0 : Vec F S8x256x128 .f32) :
    Σ' (L3 : List (View.Piece (Elt F) S8x256 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨?_, ?_, fun E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Region0Bits.lean ====
/-
  Region 0: what the accumulator and the output block hold after each grid point, the proof data, the body obligation.

  After point t the accumulator holds what the point's case leaves in it: at height step 0 the block's sums over height
  added to zero, at a later step added to what the point before left. The output block is stored only at height step 7.
  The region's invariant therefore carries the accumulator: before the first point it is at anything (with the other
  scoped buffers and the generator register), and before any later point it is at what the point before left.
-/
import proofs.«155808_j50156628082926_2_alg».proof.Proof.Region0RunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- Height step 0 stores nothing into the output block: a placeholder nothing consults. -/
def out0_A_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) : Vec F S8x256 .f32 :=
  VO0_3.read (Elt F) (VO0_3.writes (Elt F) VO0_3.junk (kernelRun0_A c i arg2 harg2 arg3 harg3 arg4 harg4 arg5 harg5 arg6 harg6 hc0 hc1 x0 x1 x2).1)
/-- Its pieces for the accumulator cover it. -/
theorem scover0_A_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) (y : S8x256x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8x256x128.size (by sl_kernel_rfl) y
/-- What height step 0 leaves in the accumulator. -/
def sout0_A_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) : Vec F S8x256x128 .f32 :=
  VS0_0.read (Elt F) (VS0_0.writes (Elt F) VS0_0.junk (kernelRun0_A c i arg2 harg2 arg3 harg3 arg4 harg4 arg5 harg5 arg6 harg6 hc0 hc1 x0 x1 x2).2.1)

/-- A middle height step stores nothing into the output block: a placeholder nothing consults. -/
def out0_B_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) : Vec F S8x256 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) (y : S8x256x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S8x256x128.size (by sl_kernel_rfl) y
/-- What a middle height step leaves in the accumulator. -/
def sout0_B_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) : Vec F S8x256x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The last height step's pieces for the output block cover it. -/
theorem cover0_C_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) (y : S8x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8x256.size (by sl_kernel_rfl) y
/-- What the last height step leaves in the output block. -/
def out0_C_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) : Vec F S8x256 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) (y : S8x256x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8x256x128.size (by sl_kernel_rfl) y
/-- What the last height step leaves in the accumulator. -/
def sout0_C_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) : Vec F S8x256x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## Each case at a grid point: the point's memrefs and input blocks -/

/-- (output block, accumulator) after a point of height step 0. -/
def atA (c : Dev nD) (t : Fin cfg0.N) (h0 : cond0_0 (grid0.coords t)) (h1 : ¬cond0_1 (grid0.coords t)) : Vec F S8x256 .f32 × Vec F S8x256x128 .f32 :=
  (out0_A_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t))
/-- (output block, accumulator) after a point of a middle height step, the accumulator entering at xs0. -/
def atB (c : Dev nD) (t : Fin cfg0.N) (h0 : ¬cond0_0 (grid0.coords t)) (h1 : ¬cond0_1 (grid0.coords t)) (xs0 : Vec F S8x256x128 .f32) : Vec F S8x256 .f32 × Vec F S8x256x128 .f32 :=
  (out0_B_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0)
/-- (output block, accumulator) after a point of the last height step, the accumulator entering at xs0. -/
def atC (c : Dev nD) (t : Fin cfg0.N) (h0 : ¬cond0_0 (grid0.coords t)) (h1 : cond0_1 (grid0.coords t)) (xs0 : Vec F S8x256x128 .f32) : Vec F S8x256 .f32 × Vec F S8x256x128 .f32 :=
  (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0)

/-! ## What the output block and the accumulator hold after each point -/

/-- By recursion on the point: the case its height step selects, a later step's accumulator entering at what the
    point before left. (A point cannot be both height step 0 and height step 7.) -/
def outsAt0 (c : Dev nD) : (n : ℕ) → n < cfg0.N → Vec F S8x256 .f32 × Vec F S8x256x128 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        atA V c ⟨n + 1, hn⟩ ((hcond0_0 ⟨n + 1, hn⟩).mpr h0) (fun h => h1 ((hcond0_1 ⟨n + 1, hn⟩).mp h))
    else
      if h1 : (n + 1) % 8 = 7 then
        atC V c ⟨n + 1, hn⟩ (fun h => h0 ((hcond0_0 ⟨n + 1, hn⟩).mp h)) ((hcond0_1 ⟨n + 1, hn⟩).mpr h1) (outsAt0 c n (Nat.lt_of_succ_lt hn)).2
      else
        atB V c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 8 = 0) (h1 : ¬t.val % 8 = 7) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = atB V c t (fun h => h0 ((hcond0_0 t).mp h)) (fun h => h1 ((hcond0_1 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = atC V c t (fun h => h0 ((hcond0_0 t).mp h)) ((hcond0_1 t).mpr h1) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers other than the accumulator that no window of this region stages (the other region's staging
    buffers), each at anything. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0_0 fullShare d) ∗ rest6 (F := F) c) ∗ (∃ r, prngReg c r)) :=
  PhiA0_eq c

/-- Before position n: at the first point the accumulator at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest6 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest6 (F := F) c) ∗ (∃ r, prngReg c r)) := by
  cases n with
  | zero => exact absurd rfl hz
  | succ n => rfl

/-! ## The proof data -/

/-- The arrays as the region finds them; after the body at point t each input's buffer at its block, the output's at
    the point's contents; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) :
    (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the closed forms say which case the point is in;
    the invariant hands the body the accumulator (at anything at the very first point, at what the point before
    left afterwards) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold atA sout0_A_0; (try dsimp only)
    by_cases hz : t.val = 0
    · rw [PhiS_castSucc V c t, PhiS_zero V c _ _ hz, PhiA0_eq']
      iintro ⟨⟨⟨HS0, Hr6⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A_0 c _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A_0 c _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold atC out0_C_3 sout0_C_0; (try dsimp only)
      rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hr6
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold atB sout0_B_0; (try dsimp only)
      rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hr6⟩, Hg⟩
  isplitl [HS0 Hr6]
  · isplitl [HS0]
    · iexists _; iexact HS0
    iexact Hr6
  iexact Hg

end Cert.Kernel.Hand

end
-- ==== Proof.Region1Bits.lean ====
/-
  Region 1, the scale kernel, on its grid [4, 16], at an arbitrary float instance.

  The kernel reads two staging buffers, a block of x of shape [8, 256, 8, 128] and a block of the broadcast gate of
  shape [8, 256, 128], and stores into a third, of shape [8, 256, 8, 128], the block of x multiplied entrywise by
  the gate block with a unit height axis inserted and broadcast along it. It keeps nothing from point to point and
  reads nothing it wrote. So at every grid point what it leaves in the output buffer is a closed function of the
  two input blocks at that point, and each input buffer holds its window's block there whether or not the block was
  fetched at that very point: the gate's block index ignores the second grid axis, so along that axis the buffer
  still holds the block fetched at the axis' first point, which is the block of every point of the row.

  Everything is stated at a parameter V, the buffer contents the region is entered with.
-/
import proofs.«155808_j50156628082926_2_alg».proof.Proof.Gen.Kernel.Launch
import proofs.«155808_j50156628082926_2_alg».proof.Proof.Gen.Kernel.Skeleton
import proofs.«155808_j50156628082926_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x block's staging buffer holds the block at every point, for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate block's staging buffer holds the block at every point, fetched there or not: where it is not fetched
    the block index has not moved (it does not read the second grid axis), so the buffer still holds this point's
    block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [8, 256, 8, 128] buffer as a rectangle, and the whole [8, 256, 128] one. -/
abbrev rX : Rect S8x256x8x128 := Rect.unit (s := S8x256x8x128) ![0, 0, 0, 0] S8x256x8x128.size inb_S8x256x8x128_S8x256x8x128_0_0_0_0
abbrev rS : Rect S8x256x128 := Rect.unit (s := S8x256x128) ![0, 0, 0] S8x256x128.size inb_S8x256x128_S8x256x128_0_0_0

/-! ## What the body leaves in the output window's buffer -/

/-- The output buffer after the body, from the two input blocks: its one store, over the whole buffer, of the
    product of the x block x0 by the gate block x1 broadcast along the height axis. -/
def out1_2 (x0 : Vec F S8x256x8x128 .f32) (x1 : Vec F S8x256x128 .f32) : Vec F S8x256x8x128 .f32 :=
  View.canon [⟨rX, k1_pay1 (View.ld x1 rS) (View.ld x0 rX)⟩]

/-- The store covers the buffer: it is the whole of it. -/
theorem cover1_2 (p0 : Vec F S8x256x8x128 .f32) (y : S8x256x8x128.Idx) :
    ∃ pc ∈ ([⟨rX, p0⟩] : List (View.Piece (Elt F) S8x256x8x128 .f32)), y ∈ pc.1.set :=
  View.cover_of_tiled [⟨rX, p0⟩] S8x256x8x128.size (by rfl) y

/-! ## The body's triple -/

set_option maxHeartbeats 1000000 in
/-- The kernel body on whole staging memrefs, the two inputs' at read contents x0 and x1 and the output's at
    anything, runs to the continuation holding the inputs' as they were and the output's at out1_2 x0 x1. -/
theorem sound_kernel1 (c : Dev nD) (E : Set ℕ) (i : grid1.Coords)
    (arg2 : Memref sig .tc .vmem S8x256x8x128 .f32) (harg2 : arg2.IsWhole)
    (arg3 : Memref sig .tc .vmem S8x256x128 .f32) (harg3 : arg3.IsWhole)
    (arg4 : Memref sig .tc .vmem S8x256x8x128 .f32) (harg4 : arg4.IsWhole)
    (x0 : Vec F S8x256x8x128 .f32) (x1 : Vec F S8x256x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each
    input's buffer at its block and the output's at out1_2 of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunBits.lean ====
/-
  The run of the whole program: region 0, the two host broadcasts, region 1.

  The buffer contents at each boundary are a fold from the launch memory: region 0 leaves its arrays at what its
  write-backs leave (the inputs as entered, the gates' array at the write-backs folded), every other buffer as
  entered; the host stretch applies its two broadcasts; region 1 likewise. Each region is a segment around its proof
  data: its arrays are split out of the unscoped buffers on entry and put back at the exit contents, the generator
  register goes into the region's invariant and comes back, nothing is owed, and the kernel has no semaphore of its own.
  At the end every unscoped buffer is read against the last contents.
-/
import proofs.«155808_j50156628082926_2_alg».proof.Proof.Region0Bits
import proofs.«155808_j50156628082926_2_alg».proof.Proof.Region1Bits
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => m ((c : Dev nD), b)
abbrev V1 : (c : Dev nD) → (b : Ref sig .tc) → Buf (Elt F) ((c : Thread nD τ).loc b) := fun c b => W0 m c b
/-- At region 0's exit. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two host broadcasts (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: a region reads one through an input window or bypasses it, no host line writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W2_arr m c 0).trans (((dat0 (V1 m) c).arrAt_in 0 rfl _).trans (A_eq0 (V1 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W2_arr m c 1).trans (((dat0 (V1 m) c).arrAt_in 1 rfl _).trans (A_eq0 (V1 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W2_arr m c 2).trans (((dat0 (V1 m) c).arrAt_in 2 rfl _).trans (A_eq0 (V1 m) c 2))
    _ = m ((c : Thread nD τ).loc main_arg2) := rfl

/-- The result array ends at what region 1's write-backs leave. -/
theorem W4_main_v3 (c : Dev nD) : W4 m c (Proc.devRef .tc main_v3) = (dat1 (V3 m) c).arrAt 2 cfg1.N := W4_arr m c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at the launch contents, left at region 0's exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents after the host broadcasts, left at the last contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    in every final state the result array holds what region 1's write-backs leave and the three argument arrays what
    they were launched with. -/
theorem run_all : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_main_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Hand

end
-- ==== Proof.Region0Runs.lean ====
/-
  Region 0 (the pooling kernel with the two products and the gate), what its three control cases share.

  The grid is 4 batch tiles by 8 height steps, point t = 8 * (batch tile) + (height step). The body resets its
  accumulator at height step 0 (t % 8 = 0), adds the block's sums over height at every step, and at height step 7
  (t % 8 = 7) computes the gates of the batch tile into the output block; at the other steps it stores nothing into
  the output block, which is then neither written back nor read at the next point. The accumulator is a scratch
  buffer the kernel keeps from one point to the next.
  Everything is stated at a parameter V: the TensorCore's buffer contents when the region is entered.
-/
import proofs.«155808_j50156628082926_2_alg».proof.Proof.Gen.KernelIdeal.Launch
import proofs.«155808_j50156628082926_2_alg».proof.Proof.Gen.KernelIdeal.Skeleton
import proofs.«155808_j50156628082926_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, from the grid coordinates -/

/-- "this is height step 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is height step 7": the gates are computed and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from height step 7 the body stores nothing into the output block, -/
theorem idleAt0_3 : ∀ t : Fin cfg0.N, ¬cond0_1 (grid0.coords t) → cfg0.idle 3 (grid0.coords t) = true := by decide +kernel
/-- and the block is not written back there. -/
theorem noFlush0_3 : ∀ t : Fin cfg0.N, ¬cond0_1 (grid0.coords t) → (cfg0.win 3).flush t = false := by decide +kernel
/-- At height step 7 it does. -/
theorem liveAt0_3 : ∀ t : Fin cfg0.N, cond0_1 (grid0.coords t) → cfg0.idle 3 (grid0.coords t) = false := by decide +kernel

/-! ## The staging and scratch memrefs -/

abbrev VO0_3 : View sig .tc .vmem S8x256 .f32 := (Memref.whole cc0_stg3_0 : Memref sig .tc .vmem S8x256 .f32).view
abbrev ms0_0 (t : Fin cfg0.N) : Memref sig .tc .vmem S8x256x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S8x256x128 .f32 := Memref.whole cc0_scratch0
abbrev VS0_0 : View sig .tc .vmem S8x256x128 .f32 := scM0_0.view

/-- The region's standing invariant with the accumulator as a memref owned at some contents: the scoped buffers no
    window stages, each at anything, and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.KernelIdeal.Hand

end
-- ==== Proof.Region0RunA.lean ====
/-
  Region 0, the case of height step 0: the accumulator is reset to zero and the block's sums over height are added;
  nothing is stored into the output block, and the two weight blocks are not read.
-/
import proofs.«155808_j50156628082926_2_alg».proof.Proof.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator in this case, with the proof that on whole memrefs — the inputs' at
    their contents, the output's at contents handed back untouched, the accumulator at anything — the body runs to the
    continuation holding all but the accumulator as they were and the accumulator with those pieces written. -/
noncomputable def kernelRun0_A (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i)
    (x0 : Vec F S8x256x16x128 .f32) (x1 : Vec F S16x256 .f32) (x2 : Vec F S256x16 .f32) :
    Σ' (L3 : List (View.Piece (Elt F) S8x256 .f32)), { LS0 : List (View.Piece (Elt F) S8x256x128 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨[], ?_, fun xi3 E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Region0RunB.lean ====
/-
  Region 0, the case of a height step strictly between the first and the last: the block's sums over height are added
  to the accumulator the point before left; nothing is stored into the output block, and the weight blocks are not read.
-/
import proofs.«155808_j50156628082926_2_alg».proof.Proof.Region0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator in this case (the accumulator entering at the contents xs0). -/
noncomputable def kernelRun0_B (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i)
    (x0 : Vec F S8x256x16x128 .f32) (x1 : Vec F S16x256 .f32) (x2 : Vec F S256x16 .f32) (xs0 : Vec F S8x256x128 .f32) :
    Σ' (L3 : List (View.Piece (Elt F) S8x256 .f32)), { LS0 : List (View.Piece (Elt F) S8x256x128 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨[], ?_, fun xi3 E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Region0RunC.lean ====
/-
  Region 0, the case of the last height step: the block's sums over height are added to the accumulator, and the
  gates of the batch tile — the accumulator summed over width and scaled, the two products, the rectifier, the
  logistic function — are stored into the output block.
-/
import proofs.«155808_j50156628082926_2_alg».proof.Proof.Region0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator in this case. -/
noncomputable def kernelRun0_C (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i)
    (x0 : Vec F S8x256x16x128 .f32) (x1 : Vec F S16x256 .f32) (x2 : Vec F S256x16 .f32) (xs0 : Vec F S8x256x128 .f32) :
    Σ' (L3 : List (View.Piece (Elt F) S8x256 .f32)), { LS0 : List (View.Piece (Elt F) S8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pool_mlp_kernel i arg2 harg2 arg3 harg3 arg4 harg4 arg5 harg5 arg6 harg6) K } := by
  refine ⟨?_, ?_, fun E K => ?run⟩
  case run =>
    simp only [cc0__pool_mlp_kernel_eq_skeleton]; unfold cc0__pool_mlp_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Region0.lean ====
/-
  Region 0: what the accumulator and the output block hold after each grid point, the proof data, the body obligation.

  After point t the accumulator holds what the point's case leaves in it: at height step 0 the block's sums over height
  added to zero, at a later step added to what the point before left. The output block is stored only at height step 7.
  The region's invariant therefore carries the accumulator: before the first point it is at anything (with the other
  scoped buffers and the generator register), and before any later point it is at what the point before left.
-/
import proofs.«155808_j50156628082926_2_alg».proof.Proof.Region0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- Height step 0 stores nothing into the output block: a placeholder nothing consults. -/
def out0_A_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) : Vec F S8x256 .f32 :=
  VO0_3.read (Elt F) (VO0_3.writes (Elt F) VO0_3.junk (kernelRun0_A c i arg2 harg2 arg3 harg3 arg4 harg4 arg5 harg5 arg6 harg6 hc0 hc1 x0 x1 x2).1)
/-- Its pieces for the accumulator cover it. -/
theorem scover0_A_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) (y : S8x256x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8x256x128.size (by sl_kernel_rfl) y
/-- What height step 0 leaves in the accumulator. -/
def sout0_A_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) : Vec F S8x256x128 .f32 :=
  VS0_0.read (Elt F) (VS0_0.writes (Elt F) VS0_0.junk (kernelRun0_A c i arg2 harg2 arg3 harg3 arg4 harg4 arg5 harg5 arg6 harg6 hc0 hc1 x0 x1 x2).2.1)

/-- A middle height step stores nothing into the output block: a placeholder nothing consults. -/
def out0_B_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) : Vec F S8x256 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) (y : S8x256x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S8x256x128.size (by sl_kernel_rfl) y
/-- What a middle height step leaves in the accumulator. -/
def sout0_B_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) : Vec F S8x256x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The last height step's pieces for the output block cover it. -/
theorem cover0_C_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) (y : S8x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8x256.size (by sl_kernel_rfl) y
/-- What the last height step leaves in the output block. -/
def out0_C_3 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) : Vec F S8x256 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) (y : S8x256x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8x256x128.size (by sl_kernel_rfl) y
/-- What the last height step leaves in the accumulator. -/
def sout0_C_0 (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) : Vec F S8x256x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## Each case at a grid point: the point's memrefs and input blocks -/

/-- (output block, accumulator) after a point of height step 0. -/
def atA (c : Dev nD) (t : Fin cfg0.N) (h0 : cond0_0 (grid0.coords t)) (h1 : ¬cond0_1 (grid0.coords t)) : Vec F S8x256 .f32 × Vec F S8x256x128 .f32 :=
  (out0_A_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t))
/-- (output block, accumulator) after a point of a middle height step, the accumulator entering at xs0. -/
def atB (c : Dev nD) (t : Fin cfg0.N) (h0 : ¬cond0_0 (grid0.coords t)) (h1 : ¬cond0_1 (grid0.coords t)) (xs0 : Vec F S8x256x128 .f32) : Vec F S8x256 .f32 × Vec F S8x256x128 .f32 :=
  (out0_B_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0)
/-- (output block, accumulator) after a point of the last height step, the accumulator entering at xs0. -/
def atC (c : Dev nD) (t : Fin cfg0.N) (h0 : ¬cond0_0 (grid0.coords t)) (h1 : cond0_1 (grid0.coords t)) (xs0 : Vec F S8x256x128 .f32) : Vec F S8x256 .f32 × Vec F S8x256x128 .f32 :=
  (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0)

/-! ## What the output block and the accumulator hold after each point -/

/-- By recursion on the point: the case its height step selects, a later step's accumulator entering at what the
    point before left. (A point cannot be both height step 0 and height step 7.) -/
def outsAt0 (c : Dev nD) : (n : ℕ) → n < cfg0.N → Vec F S8x256 .f32 × Vec F S8x256x128 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        atA V c ⟨n + 1, hn⟩ ((hcond0_0 ⟨n + 1, hn⟩).mpr h0) (fun h => h1 ((hcond0_1 ⟨n + 1, hn⟩).mp h))
    else
      if h1 : (n + 1) % 8 = 7 then
        atC V c ⟨n + 1, hn⟩ (fun h => h0 ((hcond0_0 ⟨n + 1, hn⟩).mp h)) ((hcond0_1 ⟨n + 1, hn⟩).mpr h1) (outsAt0 c n (Nat.lt_of_succ_lt hn)).2
      else
        atB V c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 8 = 0) (h1 : ¬t.val % 8 = 7) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = atB V c t (fun h => h0 ((hcond0_0 t).mp h)) (fun h => h1 ((hcond0_1 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = atC V c t (fun h => h0 ((hcond0_0 t).mp h)) ((hcond0_1 t).mpr h1) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers other than the accumulator that no window of this region stages (the other region's staging
    buffers), each at anything. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0_0 fullShare d) ∗ rest6 (F := F) c) ∗ (∃ r, prngReg c r)) :=
  PhiA0_eq c

/-- Before position n: at the first point the accumulator at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest6 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest6 (F := F) c) ∗ (∃ r, prngReg c r)) := by
  cases n with
  | zero => exact absurd rfl hz
  | succ n => rfl

/-! ## The proof data -/

/-- The arrays as the region finds them; after the body at point t each input's buffer at its block, the output's at
    the point's contents; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) :
    (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the closed forms say which case the point is in;
    the invariant hands the body the accumulator (at anything at the very first point, at what the point before
    left afterwards) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold atA sout0_A_0; (try dsimp only)
    by_cases hz : t.val = 0
    · rw [PhiS_castSucc V c t, PhiS_zero V c _ _ hz, PhiA0_eq']
      iintro ⟨⟨⟨HS0, Hr6⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A_0 c _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A_0 c _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold atC out0_C_3 sout0_C_0; (try dsimp only)
      rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hr6
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold atB sout0_B_0; (try dsimp only)
      rw [PhiS_castSucc V c t, PhiS_pos V c _ _ hz]
      iintro ⟨⟨⟨HS0, Hr6⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hr6
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, Hr6⟩, Hg⟩
  isplitl [HS0 Hr6]
  · isplitl [HS0]
    · iexists _; iexact HS0
    iexact Hr6
  iexact Hg

end Cert.KernelIdeal.Hand

end
-- ==== Proof.Region1.lean ====
/-
  Region 1, the scale kernel, on its grid [4, 16], at an arbitrary float instance.

  The kernel reads two staging buffers, a block of x of shape [8, 256, 8, 128] and a block of the broadcast gate of
  shape [8, 256, 128], and stores into a third, of shape [8, 256, 8, 128], the block of x multiplied entrywise by
  the gate block with a unit height axis inserted and broadcast along it. It keeps nothing from point to point and
  reads nothing it wrote. So at every grid point what it leaves in the output buffer is a closed function of the
  two input blocks at that point, and each input buffer holds its window's block there whether or not the block was
  fetched at that very point: the gate's block index ignores the second grid axis, so along that axis the buffer
  still holds the block fetched at the axis' first point, which is the block of every point of the row.

  Everything is stated at a parameter V, the buffer contents the region is entered with.
-/
import proofs.«155808_j50156628082926_2_alg».proof.Proof.Gen.KernelIdeal.Launch
import proofs.«155808_j50156628082926_2_alg».proof.Proof.Gen.KernelIdeal.Skeleton
import proofs.«155808_j50156628082926_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x block's staging buffer holds the block at every point, for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate block's staging buffer holds the block at every point, fetched there or not: where it is not fetched
    the block index has not moved (it does not read the second grid axis), so the buffer still holds this point's
    block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [8, 256, 8, 128] buffer as a rectangle, and the whole [8, 256, 128] one. -/
abbrev rX : Rect S8x256x8x128 := Rect.unit (s := S8x256x8x128) ![0, 0, 0, 0] S8x256x8x128.size inb_S8x256x8x128_S8x256x8x128_0_0_0_0
abbrev rS : Rect S8x256x128 := Rect.unit (s := S8x256x128) ![0, 0, 0] S8x256x128.size inb_S8x256x128_S8x256x128_0_0_0

/-! ## What the body leaves in the output window's buffer -/

/-- The output buffer after the body, from the two input blocks: its one store, over the whole buffer, of the
    product of the x block x0 by the gate block x1 broadcast along the height axis. -/
def out1_2 (x0 : Vec F S8x256x8x128 .f32) (x1 : Vec F S8x256x128 .f32) : Vec F S8x256x8x128 .f32 :=
  View.canon [⟨rX, k1_pay1 (View.ld x1 rS) (View.ld x0 rX)⟩]

/-- The store covers the buffer: it is the whole of it. -/
theorem cover1_2 (p0 : Vec F S8x256x8x128 .f32) (y : S8x256x8x128.Idx) :
    ∃ pc ∈ ([⟨rX, p0⟩] : List (View.Piece (Elt F) S8x256x8x128 .f32)), y ∈ pc.1.set :=
  View.cover_of_tiled [⟨rX, p0⟩] S8x256x8x128.size (by rfl) y

/-! ## The body's triple -/

set_option maxHeartbeats 1000000 in
/-- The kernel body on whole staging memrefs, the two inputs' at read contents x0 and x1 and the output's at
    anything, runs to the continuation holding the inputs' as they were and the output's at out1_2 x0 x1. -/
theorem sound_kernel1 (c : Dev nD) (E : Set ℕ) (i : grid1.Coords)
    (arg2 : Memref sig .tc .vmem S8x256x8x128 .f32) (harg2 : arg2.IsWhole)
    (arg3 : Memref sig .tc .vmem S8x256x128 .f32) (harg3 : arg3.IsWhole)
    (arg4 : Memref sig .tc .vmem S8x256x8x128 .f32) (harg4 : arg4.IsWhole)
    (x0 : Vec F S8x256x8x128 .f32) (x1 : Vec F S8x256x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each
    input's buffer at its block and the output's at out1_2 of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of the whole program: region 0, the two host broadcasts, region 1.

  The buffer contents at each boundary are a fold from the launch memory: region 0 leaves its arrays at what its
  write-backs leave (the inputs as entered, the gates' array at the write-backs folded), every other buffer as
  entered; the host stretch applies its two broadcasts; region 1 likewise. Each region is a segment around its proof
  data: its arrays are split out of the unscoped buffers on entry and put back at the exit contents, the generator
  register goes into the region's invariant and comes back, nothing is owed, and the kernel has no semaphore of its own.
  At the end every unscoped buffer is read against the last contents.
-/
import proofs.«155808_j50156628082926_2_alg».proof.Proof.Region0
import proofs.«155808_j50156628082926_2_alg».proof.Proof.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => m ((c : Dev nD), b)
abbrev V1 : (c : Dev nD) → (b : Ref sig .tc) → Buf (Elt F) ((c : Thread nD τ).loc b) := fun c b => W0 m c b
/-- At region 0's exit. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two host broadcasts (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: a region reads one through an input window or bypasses it, no host line writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W2_arr m c 0).trans (((dat0 (V1 m) c).arrAt_in 0 rfl _).trans (A_eq0 (V1 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W2_arr m c 1).trans (((dat0 (V1 m) c).arrAt_in 1 rfl _).trans (A_eq0 (V1 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W2_arr m c 2).trans (((dat0 (V1 m) c).arrAt_in 2 rfl _).trans (A_eq0 (V1 m) c 2))
    _ = m ((c : Thread nD τ).loc main_arg2) := rfl

/-- The result array ends at what region 1's write-backs leave. -/
theorem W4_main_v3 (c : Dev nD) : W4 m c (Proc.devRef .tc main_v3) = (dat1 (V3 m) c).arrAt 2 cfg1.N := W4_arr m c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at the launch contents, left at region 0's exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents after the host broadcasts, left at the last contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    in every final state the result array holds what region 1's write-backs leave and the three argument arrays what
    they were launched with. -/
theorem run_all : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_main_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Hand

end
-- ==== Proof.Region0Pieces.lean ====
/-
  Region 0: what each control case leaves, as the arithmetic of the blocks it reads.

  At height step 0 the accumulator is stored zero, read back, and stored again with the block's sums over height added.
  At a later step it is read at what the point before left and stored with the sums added. At the last step it is then
  read once more, and the gates computed from it and the two weight blocks are stored into the output block. Every
  store and load here goes through the whole-block rectangle at zero offsets, so a load reads the contents and the last
  store leaves its payload. Stated for every float instance.
-/
import proofs.«155808_j50156628082926_2_alg».proof.Proof.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The whole-block rectangles' offsets are zero -/

theorem pieces_off2 : (![0, 0] : Fin 2 → Nat) = fun _ => 0 := by
  funext a; match a with | ⟨0, _⟩ => rfl | ⟨1, _⟩ => rfl
theorem pieces_off3 : (![0, 0, 0] : Fin 3 → Nat) = fun _ => 0 := by
  funext a; match a with | ⟨0, _⟩ => rfl | ⟨1, _⟩ => rfl | ⟨2, _⟩ => rfl
theorem pieces_off4 : (![0, 0, 0, 0] : Fin 4 → Nat) = fun _ => 0 := by
  funext a; match a with | ⟨0, _⟩ => rfl | ⟨1, _⟩ => rfl | ⟨2, _⟩ => rfl | ⟨3, _⟩ => rfl

/-! ## What each case leaves, as the payloads of the blocks it reads -/

/-- Height step 0: the accumulator is stored zero, read back, and stored again with the block's sums over height added. -/
theorem sout0_A_0_eq (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : cond0_0 i) (hc1 : ¬cond0_1 i) (x0 : Vec F S8x256x16x128 .f32) (x1 : Vec F S16x256 .f32) (x2 : Vec F S256x16 .f32) :
    sout0_A_0 c i arg2 harg2 arg3 harg3 arg4 harg4 arg5 harg5 arg6 harg6 hc0 hc1 x0 x1 x2 = k0_pay2 (k0_pay1 (F := F)) x0 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero pieces_off3, View.readCov_unit_zero _ pieces_off3]
  simp only [View.readAt_eq_ld, harg2.read_unread, View.ld_unit_zero (S := S8x256x16x128) pieces_off4]

/-- A middle height step: the accumulator is read at what the point before left and stored with the block's sums over
    height added. -/
theorem sout0_B_0_eq (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : ¬cond0_1 i) (x0 : Vec F S8x256x16x128 .f32) (x1 : Vec F S16x256 .f32) (x2 : Vec F S256x16 .f32) (xs0 : Vec F S8x256x128 .f32) :
    sout0_B_0 c i arg2 harg2 arg3 harg3 arg4 harg4 arg5 harg5 arg6 harg6 hc0 hc1 x0 x1 x2 xs0 = k0_pay2 xs0 x0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero pieces_off3]
  simp only [View.readAt_eq_ld, harg6.read_unread, harg2.read_unread, View.ld_unit_zero (S := S8x256x128) pieces_off3,
    View.ld_unit_zero (S := S8x256x16x128) pieces_off4]

/-- The last height step leaves the accumulator as a middle step does. -/
theorem sout0_C_0_eq (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) :
    sout0_C_0 c i arg2 harg2 arg3 harg3 arg4 harg4 arg5 harg5 arg6 harg6 hc0 hc1 x0 x1 x2 xs0 = k0_pay2 xs0 x0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero pieces_off3]
  simp only [View.readAt_eq_ld, harg6.read_unread, harg2.read_unread, View.ld_unit_zero (S := S8x256x128) pieces_off3,
    View.ld_unit_zero (S := S8x256x16x128) pieces_off4]

/-- The last height step then reads the accumulator once more and stores into the output block the gates computed from
    it and the two weight blocks. -/
theorem out0_C_3_eq (c : Dev nD) (i : grid0.Coords) (arg2 : Memref sig .tc .vmem S8x256x16x128 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S8x256 .f32) (harg5 : arg5.IsWhole) (arg6 : Memref sig .tc .vmem S8x256x128 .f32) (harg6 : arg6.IsWhole) (hc0 : ¬cond0_0 i) (hc1 : cond0_1 i) (x0 : Vec F S8x256x16x128 .f32) (x1 : Vec F S16x256 .f32) (x2 : Vec F S256x16 .f32) (xs0 : Vec F S8x256x128 .f32) :
    out0_C_3 c i arg2 harg2 arg3 harg3 arg4 harg4 arg5 harg5 arg6 harg6 hc0 hc1 x0 x1 x2 xs0 = k0_pay3 (k0_pay2 xs0 x0) x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero pieces_off2, View.readCov_unit_zero _ pieces_off3]
  simp only [View.readAt_eq_ld, harg6.read_unread, harg2.read_unread, harg3.read_unread, harg4.read_unread,
    View.ld_unit_zero (S := S8x256x128) pieces_off3, View.ld_unit_zero (S := S8x256x16x128) pieces_off4,
    View.ld_unit_zero (S := S16x256) pieces_off2, View.ld_unit_zero (S := S256x16) pieces_off2]

end Cert.KernelIdeal.Hand

end
-- ==== Proof.Region0Blocks.lean ====
/-
  Region 0's windows read at an index.

  The grid is 4 batch tiles by 8 height steps, point t = 8 * (batch tile) + (height step). A block's element sits in its
  array, on each axis, at (block index) * (block size) + (its coordinate inside the block). Window 0 cuts x into blocks
  [8, 256, 16, 128] at block index (t / 8, 0, t % 8, 0), so its element (b, ch, hh, w) is x at
  (8 * (t / 8) + b, ch, 16 * (t % 8) + hh, w). Windows 1 and 2 are the two weight matrices whole, at block index (0, 0).
  Window 3 cuts the pooled result [32, 256] into blocks [8, 256] at block index (t / 8, 0): row 8 * (t / 8) + b; a row j
  lies in the block of point t exactly when j / 8 = t / 8, and the point 8 * (j / 8) + 7, a last height step, writes it back.
-/
import proofs.«155808_j50156628082926_2_alg».proof.Proof.Region0Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The block indices, decided once over the grid -/

/-- Window 0's block index at point t is (t / 8, 0, t % 8, 0). -/
theorem idx0_0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)
/-- Window 1's block index is (0, 0) at every point. -/
theorem idx0_1 : ∀ t : Fin cfg0.N, win0_1.index t (0 : Fin 2) = 0 ∧ win0_1.index t (1 : Fin 2) = 0 :=
  (by decide +kernel : ∀ t : Fin grid0.N, _)
/-- Window 2's block index is (0, 0) at every point. -/
theorem idx0_2 : ∀ t : Fin cfg0.N, win0_2.index t (0 : Fin 2) = 0 ∧ win0_2.index t (1 : Fin 2) = 0 :=
  (by decide +kernel : ∀ t : Fin grid0.N, _)
/-- Window 3's block index at point t is (t / 8, 0). -/
theorem idx0_3 : ∀ t : Fin cfg0.N, win0_3.index t (0 : Fin 2) = t.val / 8 ∧ win0_3.index t (1 : Fin 2) = 0 :=
  (by decide +kernel : ∀ t : Fin grid0.N, _)

/-! ## The input blocks at an index -/

/-- Element (b, ch, hh, w) of x's block at point t is x at (8 * (t / 8) + b, ch, 16 * (t % 8) + hh, w). -/
theorem iblk0_0_at (c : Dev nD) (t : Fin cfg0.N) (b : Fin 8) (ch : Fin 256) (hh : Fin 16) (w : Fin 128) :
    iblk0 V c 0 t (ix4 b ch hh w) = V c main_arg0 (ix4 (⟨8 * (t.val / 8) + b.val, by have := t.isLt; have : cfg0.N = 32 := N_0; omega⟩ : Fin 32) ch (⟨16 * (t.val % 8) + hh.val, by omega⟩ : Fin 128) w) := by
  obtain ⟨e0, e1, e2, e3⟩ := idx0_0 t
  unfold iblk0
  rw [View.read_apply]
  show V c main_arg0 _ = V c main_arg0 _
  refine congrArg (V c main_arg0) (funext fun a => Fin.ext ?_)
  match a with
  | ⟨0, _⟩ => show win0_0.index t (0 : Fin 4) * 8 + 1 * b.val = 8 * (t.val / 8) + b.val; omega
  | ⟨1, _⟩ => show win0_0.index t (1 : Fin 4) * 256 + 1 * ch.val = ch.val; omega
  | ⟨2, _⟩ => show win0_0.index t (2 : Fin 4) * 16 + 1 * hh.val = 16 * (t.val % 8) + hh.val; omega
  | ⟨3, _⟩ => show win0_0.index t (3 : Fin 4) * 128 + 1 * w.val = w.val; omega

/-- The first weight matrix is staged whole: its block at any point is the matrix. -/
theorem iblk0_1_at (c : Dev nD) (t : Fin cfg0.N) (r : Fin 16) (ch : Fin 256) :
    iblk0 V c 1 t (ix2 r ch) = V c main_arg1 (ix2 r ch) := by
  obtain ⟨e0, e1⟩ := idx0_1 t
  unfold iblk0
  rw [View.read_apply]
  show V c main_arg1 _ = V c main_arg1 _
  refine congrArg (V c main_arg1) (funext fun a => Fin.ext ?_)
  match a with
  | ⟨0, _⟩ => show win0_1.index t (0 : Fin 2) * 16 + 1 * r.val = r.val; omega
  | ⟨1, _⟩ => show win0_1.index t (1 : Fin 2) * 256 + 1 * ch.val = ch.val; omega

/-- The second weight matrix is staged whole: its block at any point is the matrix. -/
theorem iblk0_2_at (c : Dev nD) (t : Fin cfg0.N) (ch : Fin 256) (r : Fin 16) :
    iblk0 V c 2 t (ix2 ch r) = V c main_arg2 (ix2 ch r) := by
  obtain ⟨e0, e1⟩ := idx0_2 t
  unfold iblk0
  rw [View.read_apply]
  show V c main_arg2 _ = V c main_arg2 _
  refine congrArg (V c main_arg2) (funext fun a => Fin.ext ?_)
  match a with
  | ⟨0, _⟩ => show win0_2.index t (0 : Fin 2) * 256 + 1 * ch.val = ch.val; omega
  | ⟨1, _⟩ => show win0_2.index t (1 : Fin 2) * 16 + 1 * r.val = r.val; omega

/-! ## The output's blocks -/

/-- Element (b, ch) of the block of point t of any array of the pooled result's shape is the array at (8 * (t / 8) + b, ch). -/
theorem read_blk3_at (G : S32x256.Idx → Elt F .f32) (t : Fin cfg0.N) (b : Fin 8) (ch : Fin 256) :
    ((cfg0.win 3).blk t).view.read (Elt F) G (ix2 b ch) = G (ix2 (⟨8 * (t.val / 8) + b.val, by have := t.isLt; have : cfg0.N = 32 := N_0; omega⟩ : Fin 32) ch) := by
  obtain ⟨e0, e1⟩ := idx0_3 t
  rw [View.read_apply]
  show G _ = G _
  refine congrArg G (funext fun a => Fin.ext ?_)
  match a with
  | ⟨0, _⟩ => show win0_3.index t (0 : Fin 2) * 8 + 1 * b.val = 8 * (t.val / 8) + b.val; omega
  | ⟨1, _⟩ => show win0_3.index t (1 : Fin 2) * 256 + 1 * ch.val = ch.val; omega

/-- A row of the pooled result lies in the block of point t exactly when it is in t's batch tile. -/
theorem mem_blk3 (t : Fin cfg0.N) (j : S32x256.Idx) : j ∈ ((cfg0.win 3).blk t).view.set ↔ (j 0).val / 8 = t.val / 8 := by
  obtain ⟨e0, e1⟩ := idx0_3 t
  have h0 : (j 0).val < 32 := (j 0).isLt
  have h1 : (j 1).val < 256 := (j 1).isLt
  show j ∈ ((View.whole main_v0).slice (win0_3.rect t)).set ↔ _
  rw [View.set_slice_whole, Rect.mem_set_unit]
  constructor
  · intro h
    have b0 : win0_3.index t (0 : Fin 2) * 8 ≤ (j 0).val ∧ (j 0).val < win0_3.index t (0 : Fin 2) * 8 + 8 := h 0
    omega
  · intro h a
    match a with
    | ⟨0, _⟩ => show win0_3.index t (0 : Fin 2) * 8 ≤ (j 0).val ∧ (j 0).val < win0_3.index t (0 : Fin 2) * 8 + 8; omega
    | ⟨1, _⟩ => show win0_3.index t (1 : Fin 2) * 256 ≤ (j 1).val ∧ (j 1).val < win0_3.index t (1 : Fin 2) * 256 + 256; omega

/-- Every row is written back: by the last height step of its batch tile, the point 8 * (row / 8) + 7. -/
theorem cover3 (j : S32x256.Idx) : ∃ t : Fin cfg0.N, (cfg0.win 3).flush t = true ∧ j ∈ ((cfg0.win 3).blk t).view.set := by
  have h0 : (j 0).val < 32 := (j 0).isLt
  have hN : cfg0.N = 32 := N_0
  refine ⟨⟨8 * ((j 0).val / 8) + 7, by omega⟩, (flush0_3 _).mpr ?_, ?_⟩
  · show (8 * ((j 0).val / 8) + 7) % 8 = 7; omega
  · rw [mem_blk3]
    show (j 0).val / 8 = (8 * ((j 0).val / 8) + 7) / 8; omega

end Cert.KernelIdeal.Hand

end
-- ==== Proof.Spec.lean ====
/-
  The function both programs compute, on the extended reals.

  For x : [32, 256, 128, 128], w1 : [16, 256], w2 : [256, 16]:
    pooled x b c   = (sum over the 128 x 128 spatial positions of x[b, c, ., .]) / 16384   (the channel's spatial mean)
    hidden b r     = max (sum over c of pooled b c * w1[r, c]) 0                             (the bottleneck, rectified)
    gate b c       = 1 / (1 + exp (-(sum over r of hidden b r * w2[c, r])))                  (the channel's gate)
    G[b, c, h, w]  = x[b, c, h, w] * gate b c
  The divisor and the zero are kept as the words the programs print (16384.0 and 0.0 in f32).
-/
import Idealize.ShloMosaic.PureOps.Ideal
import Idealize.ShloMosaic.Lib.ValueIdx

noncomputable section

namespace Cert.Spec

open Idealize.ShloMosaic Idealize.ShloMosaic.ValueIdx

abbrev SX : Shape := ⟨4, ![32, 256, 128, 128]⟩
abbrev SW1 : Shape := ⟨2, ![16, 256]⟩
abbrev SW2 : Shape := ⟨2, ![256, 16]⟩

/-- The spatial mean of channel c of batch member b: the sum over all 128 x 128 positions, divided by 16384. -/
def pooled (x : SX.Idx → EReal) (b : Fin 32) (c : Fin 256) : EReal :=
  Ideal.div (∑ h : Fin 128, ∑ w : Fin 128, x (ix4 b c h w)) (Ideal.ofBits .f32 0x46800000#32)

/-- The rectified bottleneck unit r of batch member b. -/
def hidden (x : SX.Idx → EReal) (w1 : SW1.Idx → EReal) (b : Fin 32) (r : Fin 16) : EReal :=
  max (∑ c : Fin 256, pooled x b c * w1 (ix2 r c)) (Ideal.ofBits .f32 0x00000000#32)

/-- The gate of channel c of batch member b: the logistic function of the second product. -/
def gate (x : SX.Idx → EReal) (w1 : SW1.Idx → EReal) (w2 : SW2.Idx → EReal) (b : Fin 32) (c : Fin 256) : EReal :=
  Ideal.logistic (∑ r : Fin 16, hidden x w1 b r * w2 (ix2 c r))

/-- The result: every entry of x scaled by its channel's gate. -/
def G (x : SX.Idx → EReal) (w1 : SW1.Idx → EReal) (w2 : SW2.Idx → EReal) : SX.Idx → EReal :=
  fun i => x i * gate x w1 w2 ⟨(i 0).val, (i 0).isLt⟩ ⟨(i 1).val, (i 1).isLt⟩

end Cert.Spec

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.PayloadAt.lean ====
/-
  The first region's arithmetic, read one entry at a time over the extended reals.

  The scratch block starts at zero; each height step adds to entry (b, c, w) the sum over the step's 16 rows of the
  input tile; the last step turns the scratch into the gate: the sum over the 128 lanes, times 2^-14, through the two
  products with the rectifier between them, through the logistic function.  The last statement joins the two ways of
  pooling: summing 8 tiles of 16 rows and scaling by 2^-14 is the spatial mean over all 128 x 128 positions.
-/
import proofs.«155808_j50156628082926_2_alg».proof.Proof.Gen.KernelIdeal.Skeleton
import proofs.«155808_j50156628082926_2_alg».proof.Proof.Spec
import proofs.«155808_j50156628082926_2_alg».proof.Proof.LibMatmulRowsByRows
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayloadAt

open Idealize.ShloMosaic Idealize.ShloMosaic.ValueIdx Cert.KernelIdeal Cert.KernelIdeal.Gen

/-- The block the first height step stores into the scratch is zero at every entry. -/
theorem pay1_at (b : Fin 8) (c : Fin 256) (w : Fin 128) : k0_pay1 (F := Ideal) (ix3 b c w) = 0 := by
  unfold k0_pay1
  rw [shapeCast_self]
  exact Ideal.ofBits_zero_f32

/-- One height step: entry (b, c, w) of the scratch grows by the sum over the 16 rows of the tile at (b, c, ., w). -/
theorem pay2_at (v3 : Vec Ideal S8x256x128 .f32) (v4 : Vec Ideal S8x256x16x128 .f32) (b : Fin 8) (c : Fin 256) (w : Fin 128) :
    k0_pay2 v3 v4 (ix3 b c w) = v3 (ix3 b c w) + ∑ hh : Fin 16, v4 (ix4 b c hh w) := by
  unfold k0_pay2
  rw [shapeCast_self]
  refine congrArg (v3 (ix3 b c w) + ·) ?_
  refine (Ideal.multiReduction_add_single v4 0x00000000#32 reduces_S8x256x16x128_S8x256x128 _ _ (ix3 b c w)).trans ?_
  exact Finset.sum_congr rfl fun k _ => congrArg v4 (by
    funext a; apply Fin.ext
    match a with
    | ⟨0, _⟩ => rfl
    | ⟨1, _⟩ => rfl
    | ⟨2, _⟩ => rfl
    | ⟨3, _⟩ => rfl)

/-! ## The two products' operand indices

For each of the program's two dimension records (both contract the second axis of each operand, no batch axes): the
left operand's index at output (r, c) and contraction coordinate k is (r, k), the right operand's is (c, k). -/

theorem lhsA_0 (j : S8x16.Idx) (q : dot_S8x256_S16x256_S8x16_1_1_0_0_n_n.contr.Idx) :
    (dot_S8x256_S16x256_S8x16_1_1_0_0_n_n.lhsIdx j q 0).val = (j 0).val := by
  unfold DotDims.lhsIdx
  rw [dif_neg (show ¬(0 : Fin S8x256.rank) ∈ dot_S8x256_S16x256_S8x16_1_1_0_0_n_n.lhsBatch by decide),
    dif_pos (show (0 : Fin S8x256.rank) ∈ dot_S8x256_S16x256_S8x16_1_1_0_0_n_n.lhsNonContracting by decide)]
  rfl
theorem lhsA_1 (j : S8x16.Idx) (q : dot_S8x256_S16x256_S8x16_1_1_0_0_n_n.contr.Idx) :
    (dot_S8x256_S16x256_S8x16_1_1_0_0_n_n.lhsIdx j q 1).val = (q ⟨0, by decide⟩).val :=
  dot_S8x256_S16x256_S8x16_1_1_0_0_n_n.lhsIdx_val_of_single rfl j q
theorem rhsA_0 (j : S8x16.Idx) (q : dot_S8x256_S16x256_S8x16_1_1_0_0_n_n.contr.Idx) :
    (dot_S8x256_S16x256_S8x16_1_1_0_0_n_n.rhsIdx j q 0).val = (j 1).val := by
  unfold DotDims.rhsIdx
  rw [dif_neg (show ¬(0 : Fin S16x256.rank) ∈ dot_S8x256_S16x256_S8x16_1_1_0_0_n_n.rhsBatch by decide),
    dif_pos (show (0 : Fin S16x256.rank) ∈ dot_S8x256_S16x256_S8x16_1_1_0_0_n_n.rhsNonContracting by decide)]
  rfl
theorem rhsA_1 (j : S8x16.Idx) (q : dot_S8x256_S16x256_S8x16_1_1_0_0_n_n.contr.Idx) :
    (dot_S8x256_S16x256_S8x16_1_1_0_0_n_n.rhsIdx j q 1).val = (q ⟨0, by decide⟩).val :=
  dot_S8x256_S16x256_S8x16_1_1_0_0_n_n.rhsIdx_val_of_single rfl j q

theorem lhsB_0 (j : S8x256.Idx) (q : dot_S8x16_S256x16_S8x256_1_1_0_0_n_n.contr.Idx) :
    (dot_S8x16_S256x16_S8x256_1_1_0_0_n_n.lhsIdx j q 0).val = (j 0).val := by
  unfold DotDims.lhsIdx
  rw [dif_neg (show ¬(0 : Fin S8x16.rank) ∈ dot_S8x16_S256x16_S8x256_1_1_0_0_n_n.lhsBatch by decide),
    dif_pos (show (0 : Fin S8x16.rank) ∈ dot_S8x16_S256x16_S8x256_1_1_0_0_n_n.lhsNonContracting by decide)]
  rfl
theorem lhsB_1 (j : S8x256.Idx) (q : dot_S8x16_S256x16_S8x256_1_1_0_0_n_n.contr.Idx) :
    (dot_S8x16_S256x16_S8x256_1_1_0_0_n_n.lhsIdx j q 1).val = (q ⟨0, by decide⟩).val :=
  dot_S8x16_S256x16_S8x256_1_1_0_0_n_n.lhsIdx_val_of_single rfl j q
theorem rhsB_0 (j : S8x256.Idx) (q : dot_S8x16_S256x16_S8x256_1_1_0_0_n_n.contr.Idx) :
    (dot_S8x16_S256x16_S8x256_1_1_0_0_n_n.rhsIdx j q 0).val = (j 1).val := by
  unfold DotDims.rhsIdx
  rw [dif_neg (show ¬(0 : Fin S256x16.rank) ∈ dot_S8x16_S256x16_S8x256_1_1_0_0_n_n.rhsBatch by decide),
    dif_pos (show (0 : Fin S256x16.rank) ∈ dot_S8x16_S256x16_S8x256_1_1_0_0_n_n.rhsNonContracting by decide)]
  rfl
theorem rhsB_1 (j : S8x256.Idx) (q : dot_S8x16_S256x16_S8x256_1_1_0_0_n_n.contr.Idx) :
    (dot_S8x16_S256x16_S8x256_1_1_0_0_n_n.rhsIdx j q 1).val = (q ⟨0, by decide⟩).val :=
  dot_S8x16_S256x16_S8x256_1_1_0_0_n_n.rhsIdx_val_of_single rfl j q

/-- The last height step: entry (b, c) of the gate is the logistic function of the second product at (b, c), whose left
    operand is the rectified first product of the scaled lane sums with the first weight. -/
theorem pay3_at (v13 : Vec Ideal S8x256x128 .f32) (v17 : Vec Ideal S16x256 .f32) (v21 : Vec Ideal S256x16 .f32) (b : Fin 8) (c : Fin 256) :
    k0_pay3 v13 v17 v21 (ix2 b c)
      = Ideal.logistic (∑ r : Fin 16, max (∑ c' : Fin 256, ((∑ w : Fin 128, v13 (ix3 b c' w)) * Ideal.ofBits .f32 0x38800000#32) * v17 (ix2 r c')) (Ideal.ofBits .f32 0x00000000#32) * v21 (ix2 c r)) := by
  unfold k0_pay3
  refine congrArg Ideal.logistic ?_
  refine (Cert.Lib.RowsByRows.matmul_zero_at dot_S8x16_S256x16_S8x256_1_1_0_0_n_n rfl rfl
    lhsB_0 lhsB_1 rhsB_0 rhsB_1 none _ v21 b c).trans ?_
  refine Finset.sum_congr rfl fun r _ => congrArg (· * v21 (ix2 c r)) ?_
  refine congrArg (max · (Ideal.ofBits .f32 0x00000000#32)) ?_
  refine (Cert.Lib.RowsByRows.matmul_zero_at dot_S8x256_S16x256_S8x16_1_1_0_0_n_n rfl rfl
    lhsA_0 lhsA_1 rhsA_0 rhsA_1 none _ v17 b r).trans ?_
  refine Finset.sum_congr rfl fun c' _ => congrArg (· * v17 (ix2 r c')) ?_
  refine congrArg (· * Ideal.ofBits .f32 0x38800000#32) ?_
  refine (Ideal.multiReduction_add_single v13 0x00000000#32 reduces_S8x256x128_S8x256 _ _ (ix2 b c')).trans ?_
  exact Finset.sum_congr rfl fun k _ => congrArg v13 (by
    funext a; apply Fin.ext
    match a with
    | ⟨0, _⟩ => rfl
    | ⟨1, _⟩ => rfl
    | ⟨2, _⟩ => rfl)

/-! ## Pooling by tiles is the spatial mean -/

/-- The word 0x38800000 is 2^-14. -/
theorem word_inv16384 : Ideal.ofBits .f32 0x38800000#32 = ((1 / 16384 : ℝ) : EReal) := by
  simp [Ideal.ofBits, Ideal.ieee, -EReal.coe_mul]; norm_num

/-- The word 0x46800000 is 2^14. -/
theorem word_16384 : Ideal.ofBits .f32 0x46800000#32 = ((16384 : ℝ) : EReal) := by
  simp [Ideal.ofBits, Ideal.ieee, -EReal.coe_mul]; norm_num

/-- A height below 128 is a tile below 8 and a row below 16 of it. -/
def tileEquiv : Fin 8 × Fin 16 ≃ Fin 128 where
  toFun p := ⟨16 * p.1.val + p.2.val, by omega⟩
  invFun h := (⟨h.val / 16, by omega⟩, ⟨h.val % 16, by omega⟩)
  left_inv p := by
    refine Prod.ext (Fin.ext ?_) (Fin.ext ?_)
    · show (16 * p.1.val + p.2.val) / 16 = p.1.val
      omega
    · show (16 * p.1.val + p.2.val) % 16 = p.2.val
      omega
  right_inv h := by
    refine Fin.ext ?_
    show 16 * (h.val / 16) + h.val % 16 = h.val
    omega

/-- A sum over the 128 heights is the sum over the 8 tiles of the sums over each tile's 16 rows. -/
theorem sum_tiles {M : Type} [AddCommMonoid M] (g : Fin 128 → M) :
    ∑ h : Fin 128, g h = ∑ hb : Fin 8, ∑ hh : Fin 16, g (⟨16 * hb.val + hh.val, by omega⟩ : Fin 128) := by
  rw [← Equiv.sum_comp tileEquiv g, Fintype.sum_prod_type]
  rfl

/-- The lane sum of the tile sums, scaled by 2^-14, is the spatial mean: the quotient by 16384 is the product with its
    inverse at every extended real, and the sums differ only in their order. -/
theorem pooled_of_tiles (x : Cert.Spec.SX.Idx → EReal) (b : Fin 32) (c : Fin 256) :
    (∑ w : Fin 128, ∑ hb : Fin 8, ∑ hh : Fin 16, x (ix4 b c (⟨16 * hb.val + hh.val, by omega⟩ : Fin 128) w)) * Ideal.ofBits .f32 0x38800000#32 = Cert.Spec.pooled x b c := by
  unfold Cert.Spec.pooled
  rw [word_16384, Ideal.div_coe (by norm_num : (16384 : ℝ) ≠ 0), word_inv16384]
  refine congrArg (· * ((1 / 16384 : ℝ) : EReal)) ?_
  refine Eq.trans ?_ (Finset.sum_comm (f := fun (w : Fin 128) (h : Fin 128) => x (ix4 b c h w)))
  exact Finset.sum_congr rfl fun w _ => (sum_tiles fun h => x (ix4 b c h w)).symm

end Cert.KernelIdeal.PayloadAt

end
-- ==== Proof.Region0Acc.lean ====
/-
  Region 0 at the ideal instance: the accumulator after each grid point.

  After the point of batch tile bt and height step hs, the accumulator at (b, c, w) is the sum over the height tiles
  0..hs and the 16 rows of each of x[8 bt + b, c, 16 tile + row, w]: at height step 0 the block's sums are added to zero, at a
  later step to what the point before left.
-/
import proofs.«155808_j50156628082926_2_alg».proof.Proof.Region0
import proofs.«155808_j50156628082926_2_alg».proof.Proof.Region0Pieces
import proofs.«155808_j50156628082926_2_alg».proof.Proof.Region0Blocks
import proofs.«155808_j50156628082926_2_alg».proof.Proof.PayloadAt
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayloadAt

variable (V : (c : Dev nD) → (b : Ref sig .tc) → Buf (Elt Ideal) ((c : Thread nD τ).loc b))

/-- The three arrays the region finds, as functions into the extended reals. -/
abbrev xA (c : Dev nD) : S32x256x128x128.Idx → EReal := V c main_arg0
abbrev w1A (c : Dev nD) : S16x256.Idx → EReal := V c main_arg1
abbrev w2A (c : Dev nD) : S256x16.Idx → EReal := V c main_arg2

/-- x at natural-number batch and height coordinates (zero outside the array: never read there). -/
def xAt (X : S32x256x128x128.Idx → EReal) (B : ℕ) (ch : Fin 256) (h : ℕ) (w : Fin 128) : EReal :=
  if hB : B < 32 then (if hh : h < 128 then X (ix4 (⟨B, hB⟩ : Fin 32) ch (⟨h, hh⟩ : Fin 128) w) else 0) else 0

theorem xAt_eq (X : S32x256x128x128.Idx → EReal) (B : Fin 32) (ch : Fin 256) (h : Fin 128) (w : Fin 128) :
    xAt X B.val ch h.val w = X (ix4 B ch h w) := by
  unfold xAt; rw [dif_pos B.isLt, dif_pos h.isLt]

theorem lt32 (n : ℕ) (hn : n < cfg0.N) : n < 32 := lt_of_lt_of_eq hn (show cfg0.N = 32 from N_0)

/-- An entry of the block of x at point n. -/
theorem blockEntry_at (c : Dev nD) (n : ℕ) (hn : n < cfg0.N) (b : Fin 8) (ch : Fin 256) (hh : Fin 16) (w : Fin 128) :
    xAt (xA V c) (8 * (n / 8) + b.val) ch (16 * (n % 8) + hh.val) w = iblk0 V c 0 ⟨n, hn⟩ (ix4 b ch hh w) := by
  have hn' := lt32 n hn
  have hB : 8 * (n / 8) + b.val < 32 := by omega
  have hH : 16 * (n % 8) + hh.val < 128 := by omega
  exact (xAt_eq (xA V c) ⟨8 * (n / 8) + b.val, hB⟩ ch ⟨16 * (n % 8) + hh.val, hH⟩ w).trans (iblk0_0_at V c ⟨n, hn⟩ b ch hh w).symm

/-- At height step 0 the accumulator ends at the block's sums over height. -/
theorem acc_first (c : Dev nD) (n : ℕ) (hn : n < cfg0.N) (h0 : n % 8 = 0) (b : Fin 8) (ch : Fin 256) (w : Fin 128) :
    (outsAt0 V c n hn).2 (ix3 b ch w) = ∑ hh : Fin 16, xAt (xA V c) (8 * (n / 8) + b.val) ch (16 * (n % 8) + hh.val) w := by
  have h7 : ¬ n % 8 = 7 := by omega
  have e : outsAt0 V c n hn = atA V c ⟨n, hn⟩ ((hcond0_0 ⟨n, hn⟩).mpr h0) (fun h => h7 ((hcond0_1 ⟨n, hn⟩).mp h)) :=
    outsAt0_A V c ⟨n, hn⟩ h0 h7
  rw [e]; unfold atA; dsimp only
  rw [sout0_A_0_eq]
  refine (pay2_at _ _ b ch w).trans ?_
  rw [pay1_at, zero_add]
  exact Finset.sum_congr rfl fun hh _ => (blockEntry_at V c n hn b ch hh w).symm

/-- At a later height step it ends at what the point before left plus the block's sums over height. -/
theorem acc_next (c : Dev nD) (n : ℕ) (hn : n + 1 < cfg0.N) (h0 : ¬ (n + 1) % 8 = 0) (b : Fin 8) (ch : Fin 256) (w : Fin 128) :
    (outsAt0 V c (n + 1) hn).2 (ix3 b ch w)
      = (outsAt0 V c n (Nat.lt_of_succ_lt hn)).2 (ix3 b ch w) + ∑ hh : Fin 16, xAt (xA V c) (8 * ((n + 1) / 8) + b.val) ch (16 * ((n + 1) % 8) + hh.val) w := by
  by_cases h1 : (n + 1) % 8 = 7
  · have e : outsAt0 V c (n + 1) hn = atC V c ⟨n + 1, hn⟩ (fun h => h0 ((hcond0_0 ⟨n + 1, hn⟩).mp h)) ((hcond0_1 ⟨n + 1, hn⟩).mpr h1) (outsAt0 V c n (Nat.lt_of_succ_lt hn)).2 :=
      (dif_neg h0).trans (dif_pos h1)
    rw [e]; unfold atC; dsimp only
    rw [sout0_C_0_eq]
    refine (pay2_at _ _ b ch w).trans ?_
    exact congrArg (_ + ·) (Finset.sum_congr rfl fun hh _ => (blockEntry_at V c (n + 1) hn b ch hh w).symm)
  · have e : outsAt0 V c (n + 1) hn = atB V c ⟨n + 1, hn⟩ (fun h => h0 ((hcond0_0 ⟨n + 1, hn⟩).mp h)) (fun h => h1 ((hcond0_1 ⟨n + 1, hn⟩).mp h)) (outsAt0 V c n (Nat.lt_of_succ_lt hn)).2 :=
      (dif_neg h0).trans (dif_neg h1)
    rw [e]; unfold atB; dsimp only
    rw [sout0_B_0_eq]
    refine (pay2_at _ _ b ch w).trans ?_
    exact congrArg (_ + ·) (Finset.sum_congr rfl fun hh _ => (blockEntry_at V c (n + 1) hn b ch hh w).symm)

/-- THE ACCUMULATOR after point n: the sums over the height tiles 0 .. n % 8 of the batch tile n / 8. -/
theorem acc_at (c : Dev nD) : ∀ (n : ℕ) (hn : n < cfg0.N) (b : Fin 8) (ch : Fin 256) (w : Fin 128),
    (outsAt0 V c n hn).2 (ix3 b ch w)
      = ∑ hb ∈ Finset.range (n % 8 + 1), ∑ hh : Fin 16, xAt (xA V c) (8 * (n / 8) + b.val) ch (16 * hb + hh.val) w := by
  intro n
  induction n with
  | zero =>
    intro hn b ch w
    rw [acc_first V c 0 hn rfl b ch w]
    simp only [Nat.zero_mod, zero_add, Finset.sum_range_one]
  | succ n ih =>
    intro hn b ch w
    by_cases h0 : (n + 1) % 8 = 0
    · rw [acc_first V c (n + 1) hn h0 b ch w, h0]
      simp only [zero_add, Finset.sum_range_one]
    · have e1 : (n + 1) % 8 = n % 8 + 1 := by omega
      have e2 : (n + 1) / 8 = n / 8 := by omega
      rw [acc_next V c n hn h0 b ch w, ih (Nat.lt_of_succ_lt hn) b ch w, e2, e1]
      exact (Finset.sum_range_succ (fun hb => ∑ hh : Fin 16, xAt (xA V c) (8 * (n / 8) + b.val) ch (16 * hb + hh.val) w) (n % 8 + 1)).symm

end Cert.KernelIdeal.Hand

end
-- ==== Proof.Region0Value.lean ====
/-
  Region 0 at the ideal instance: what it leaves in the gates' array, as one function of the arrays it finds.

  At height step 7 all 8 height tiles are in the accumulator, the sum over width of the accumulator scaled by 2^-14 is the
  channel's spatial mean, and the stored block is the gates of the batch tile. The blocks written back (one per batch
  tile, at its last height step) cover the [32, 256] array.
-/
import proofs.«155808_j50156628082926_2_alg».proof.Proof.Region0Acc
import proofs.«155808_j50156628082926_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayloadAt

variable (V : (c : Dev nD) → (b : Ref sig .tc) → Buf (Elt Ideal) ((c : Thread nD τ).loc b))

/-- The gates' array: at (B, c) the gate of channel c of batch member B. -/
def gateArr (c : Dev nD) : S32x256.Idx → EReal :=
  fun j => Cert.Spec.gate (xA V c) (w1A V c) (w2A V c) ⟨(j 0).val, (j 0).isLt⟩ ⟨(j 1).val, (j 1).isLt⟩

/-- With all 8 height tiles in, the accumulator summed over width and scaled is the channel's spatial mean. -/
theorem pooled_at (c : Dev nD) (t : Fin cfg0.N) (h1 : t.val % 8 = 7) (b : Fin 8) (c' : Fin 256)
    (hB : 8 * (t.val / 8) + b.val < 32) :
    (∑ w : Fin 128, (outsAt0 V c t.val t.isLt).2 (ix3 b c' w)) * Ideal.ofBits .f32 0x38800000#32
      = Cert.Spec.pooled (xA V c) ⟨8 * (t.val / 8) + b.val, hB⟩ c' := by
  rw [← pooled_of_tiles]
  refine congrArg (· * Ideal.ofBits .f32 0x38800000#32) (Finset.sum_congr rfl fun w _ => ?_)
  rw [acc_at V c t.val t.isLt b c' w, h1, Finset.sum_range]
  refine Finset.sum_congr rfl fun hb _ => Finset.sum_congr rfl fun hh _ => ?_
  exact xAt_eq (xA V c) ⟨8 * (t.val / 8) + b.val, hB⟩ c' ⟨16 * hb.val + hh.val, by omega⟩ w

/-- At a last height step the stored block is the gates of the batch tile. -/
theorem gate_at (c : Dev nD) (t : Fin cfg0.N) (h1 : t.val % 8 = 7) (b : Fin 8) (ch : Fin 256)
    (hB : 8 * (t.val / 8) + b.val < 32) :
    (outsAt0 V c t.val t.isLt).1 (ix2 b ch)
      = Cert.Spec.gate (xA V c) (w1A V c) (w2A V c) (⟨8 * (t.val / 8) + b.val, hB⟩ : Fin 32) ch := by
  have h0 : ¬ t.val % 8 = 0 := by omega
  have e := outsAt0_C V c t h0 h1
  have hs : (outsAt0 V c t.val t.isLt).2 = k0_pay2 (outsAt0 V c (t.val - 1) (Nat.lt_of_le_of_lt (Nat.sub_le _ _) t.isLt)).2 (iblk0 V c 0 t) := by
    rw [e]; unfold atC; dsimp only; rw [sout0_C_0_eq]
  have ho : (outsAt0 V c t.val t.isLt).1 = k0_pay3 (outsAt0 V c t.val t.isLt).2 (iblk0 V c 1 t) (iblk0 V c 2 t) := by
    rw [hs, e]; unfold atC; dsimp only; rw [out0_C_3_eq]
  rw [ho]
  refine (pay3_at _ _ _ b ch).trans ?_
  unfold Cert.Spec.gate Cert.Spec.hidden
  refine congrArg Ideal.logistic (Finset.sum_congr rfl fun r _ => ?_)
  refine congrArg₂ (· * ·) ?_ (iblk0_2_at V c t ch r)
  refine congrArg (fun z => max z (Ideal.ofBits .f32 0x00000000#32)) (Finset.sum_congr rfl fun c' _ => ?_)
  exact congrArg₂ (· * ·) (pooled_at V c t h1 b c' hB) (iblk0_1_at V c t r c')

/-- What a writing-back point writes back is its block of the gates' array. -/
theorem flushed_eq0 (c : Dev nD) (t : Fin cfg0.N) (hf : (cfg0.win 3).flush t = true) :
    (dat0 V c).flushed 3 t = ((cfg0.win 3).blk t).view.read (Elt Ideal) (gateArr V c) := by
  have h1 : t.val % 8 = 7 := (flush0_3 t).mp hf
  have hn' := lt32 t.val t.isLt
  show (cfg0.win 3).cut (grid0.coords t) ((dat0 V c).after 3 t) = _
  rw [after0_3]
  funext y
  obtain ⟨b, ch, rfl⟩ : ∃ (b : Fin 8) (ch : Fin 256), y = ix2 b ch := ⟨y 0, y 1, eq_ix2 y⟩
  rw [read_blk3_at]
  exact gate_at V c t h1 b ch (by omega)

/-- So the gates' array ends holding the gates. -/
theorem final0 (c : Dev nD) : (dat0 V c).arrAt 3 cfg0.N = gateArr V c :=
  (dat0 V c).arrAt_eq_of_cover 3 (gateArr V c) (flushed_eq0 V c) cover3

end Cert.KernelIdeal.Hand

end
-- ==== Proof.Region1Value.lean ====
/-
  What region 1 leaves in its output array, at the extended reals, as one function of the arrays it found.

  At every grid point the kernel multiplies the x block entrywise by the gate block read at (batch, channel, width):
  the gate block gets a unit height axis and is broadcast along it. The x block and the output block of a point sit at
  the same place of their arrays, and the gate block at the same batch rows; every entry of the output array lies in
  the block of exactly one point, (batch / 8, height / 8). So the output array ends at x[b, c, h, w] * s[b, c, w].
-/
import proofs.«155808_j50156628082926_2_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The stored value at (b, c, h, w): the x entry there times the gate entry at (b, c, w). -/
theorem pay_scale_at (v0 : Vec Ideal S8x256x128 .f32) (v2 : Vec Ideal S8x256x8x128 .f32) (b : Fin 8) (c : Fin 256) (h : Fin 8) (w : Fin 128) :
    k1_pay1 v0 v2 (ix4 b c h w) = v2 (ix4 b c h w) * v0 (ix3 b c w) := by
  unfold k1_pay1
  refine (mulf_apply _ _ _).trans ?_
  refine congrArg (v2 (ix4 b c h w) * ·) ?_
  refine (broadcastTo_apply _ broadcasts_S8x256x1x128_S8x256x8x128 (ix4 b c h w) (ix4 b c (0 : Fin 1) w) (fun a => ?_)).trans ?_
  · match a with
    | ⟨0, _⟩ => rfl
    | ⟨1, _⟩ => rfl
    | ⟨2, _⟩ => rfl
    | ⟨3, _⟩ => rfl
  refine (shapeCast_apply _ shapeCasts_S8x256x128_S8x256x1x128 (ix4 b c (0 : Fin 1) w) (ix3 b c w) ?_).trans ?_
  · rw [Shape.rowMajor_val_three, Shape.rowMajor_val_four]
    show (b.val * 256 + c.val) * 128 + w.val = ((b.val * 256 + c.val) * 1 + 0) * 128 + w.val
    omega
  rw [shapeCast_self]

/-! ## From blocks to the array -/

-- the buffer contents the region is entered with
variable (V : (c : Dev nD) → (b : Ref sig .tc) → Buf (Elt Ideal) ((c : Thread nD τ).loc b))

/-- The array x [32, 256, 128, 128] as the region finds it. -/
abbrev xArr (c : Dev nD) : S32x256x128x128.Idx → EReal := V c main_arg0
/-- The broadcast gate [32, 256, 128] as the region finds it. -/
abbrev sArr (c : Dev nD) : S32x256x128.Idx → EReal := V c main_v2
/-- The array the region leaves: x[b, c, h, w] times the broadcast gate at (b, c, w). -/
abbrev scaled (c : Dev nD) : S32x256x128x128.Idx → EReal := fun i =>
  xArr V c i * sArr V c (ix3 (⟨(i 0).val, (i 0).isLt⟩ : Fin 32) (⟨(i 1).val, (i 1).isLt⟩ : Fin 256) (⟨(i 3).val, (i 3).isLt⟩ : Fin 128))
/-- The two input blocks of point t, at their literal shapes. -/
abbrev xBlk (c : Dev nD) (t : Fin cfg1.N) : Vec Ideal S8x256x8x128 .f32 := iblk1 V c 0 t
abbrev sBlk (c : Dev nD) (t : Fin cfg1.N) : Vec Ideal S8x256x128 .f32 := iblk1 V c 1 t

/-- The block indices, decided over the 64 grid points: the x block sits where the output block does, the gate block
    at the same batch block and nowhere else displaced; the output block of point t is (t / 16, 0, t % 16, 0). -/
theorem index_facts1 : ∀ t : Fin cfg1.N,
    win1_0.index t (0 : Fin 4) = win1_2.index t (0 : Fin 4) ∧ win1_0.index t (1 : Fin 4) = win1_2.index t (1 : Fin 4)
    ∧ win1_0.index t (2 : Fin 4) = win1_2.index t (2 : Fin 4) ∧ win1_0.index t (3 : Fin 4) = win1_2.index t (3 : Fin 4)
    ∧ win1_1.index t (0 : Fin 3) = win1_2.index t (0 : Fin 4) ∧ win1_1.index t (1 : Fin 3) = 0 ∧ win1_1.index t (2 : Fin 3) = 0
    ∧ win1_2.index t (0 : Fin 4) = t.val / 16 ∧ win1_2.index t (1 : Fin 4) = 0
    ∧ win1_2.index t (2 : Fin 4) = t.val % 16 ∧ win1_2.index t (3 : Fin 4) = 0 :=
  (by decide +kernel : ∀ t : Fin grid1.N, _)

/-- An entry of the x block of point t is the entry of x at the output block's place. -/
theorem xblock_at (c : Dev nD) (t : Fin cfg1.N) (y : S8x256x8x128.Idx) (i : S32x256x128x128.Idx)
    (h0 : (i 0).val = win1_2.index t (0 : Fin 4) * 8 + (y 0).val) (h1 : (i 1).val = win1_2.index t (1 : Fin 4) * 256 + (y 1).val)
    (h2 : (i 2).val = win1_2.index t (2 : Fin 4) * 8 + (y 2).val) (h3 : (i 3).val = win1_2.index t (3 : Fin 4) * 128 + (y 3).val) :
    xBlk V c t y = xArr V c i := by
  obtain ⟨e0, e1, e2, e3, -⟩ := index_facts1 t
  unfold xBlk xArr iblk1
  rw [View.read_apply]
  show (V c main_arg0 : S32x256x128x128.Idx → EReal) _ = _
  refine congrArg (V c main_arg0 : S32x256x128x128.Idx → EReal) (funext fun a => Fin.ext ?_)
  match a with
  | ⟨0, _⟩ => show win1_0.index t (0 : Fin 4) * 8 + 1 * (y 0).val = (i 0).val; omega
  | ⟨1, _⟩ => show win1_0.index t (1 : Fin 4) * 256 + 1 * (y 1).val = (i 1).val; omega
  | ⟨2, _⟩ => show win1_0.index t (2 : Fin 4) * 8 + 1 * (y 2).val = (i 2).val; omega
  | ⟨3, _⟩ => show win1_0.index t (3 : Fin 4) * 128 + 1 * (y 3).val = (i 3).val; omega

/-- An entry of the gate block of point t is the entry of the broadcast gate in the output block's batch rows. -/
theorem sblock_at (c : Dev nD) (t : Fin cfg1.N) (y : S8x256x128.Idx) (k : S32x256x128.Idx)
    (h0 : (k 0).val = win1_2.index t (0 : Fin 4) * 8 + (y 0).val) (h1 : (k 1).val = (y 1).val) (h2 : (k 2).val = (y 2).val) :
    sBlk V c t y = sArr V c k := by
  obtain ⟨-, -, -, -, e4, e5, e6, -⟩ := index_facts1 t
  unfold sBlk sArr iblk1
  rw [View.read_apply]
  show (V c main_v2 : S32x256x128.Idx → EReal) _ = _
  refine congrArg (V c main_v2 : S32x256x128.Idx → EReal) (funext fun a => Fin.ext ?_)
  match a with
  | ⟨0, _⟩ => show win1_1.index t (0 : Fin 3) * 8 + 1 * (y 0).val = (k 0).val; omega
  | ⟨1, _⟩ => show win1_1.index t (1 : Fin 3) * 256 + 1 * (y 1).val = (k 1).val; omega
  | ⟨2, _⟩ => show win1_1.index t (2 : Fin 3) * 128 + 1 * (y 2).val = (k 2).val; omega

/-- The value stored at point t, entry by entry, is the array function read at the entry's place in the array. -/
theorem scale_block (c : Dev nD) (t : Fin cfg1.N) (j : S8x256x8x128.Idx) :
    k1_pay1 (sBlk V c t) (xBlk V c t) j = scaled V c (((cfg1.win 2).blk t).view.emb j) := by
  obtain ⟨b, ch, h, w, rfl⟩ : ∃ (b : Fin 8) (ch : Fin 256) (h : Fin 8) (w : Fin 128), j = ix4 b ch h w :=
    ⟨j 0, j 1, j 2, j 3, eq_ix4 j⟩
  obtain ⟨-, -, -, -, -, -, -, -, e8, -, e10⟩ := index_facts1 t
  refine (pay_scale_at (sBlk V c t) (xBlk V c t) b ch h w).trans ?_
  refine congrArg₂ (fun p q : EReal => p * q) (xblock_at V c t (ix4 b ch h w) (((cfg1.win 2).blk t).view.emb (ix4 b ch h w)) ?_ ?_ ?_ ?_)
    (sblock_at V c t (ix3 b ch w) _ ?_ ?_ ?_)
  · show win1_2.index t (0 : Fin 4) * 8 + 1 * b.val = win1_2.index t (0 : Fin 4) * 8 + b.val; omega
  · show win1_2.index t (1 : Fin 4) * 256 + 1 * ch.val = win1_2.index t (1 : Fin 4) * 256 + ch.val; omega
  · show win1_2.index t (2 : Fin 4) * 8 + 1 * h.val = win1_2.index t (2 : Fin 4) * 8 + h.val; omega
  · show win1_2.index t (3 : Fin 4) * 128 + 1 * w.val = win1_2.index t (3 : Fin 4) * 128 + w.val; omega
  · show win1_2.index t (0 : Fin 4) * 8 + 1 * b.val = win1_2.index t (0 : Fin 4) * 8 + b.val; omega
  · show win1_2.index t (1 : Fin 4) * 256 + 1 * ch.val = ch.val; omega
  · show win1_2.index t (3 : Fin 4) * 128 + 1 * w.val = w.val; omega

/-- What point t writes back is block t of the array function. -/
theorem flushed1_eq (c : Dev nD) (t : Fin cfg1.N) :
    (dat1 V c).flushed 2 t = ((cfg1.win 2).blk t).view.read (Elt Ideal) (scaled V c) := by
  show (cfg1.win 2).cut (grid1.coords t) ((dat1 V c).after 2 t) = _
  rw [after1_2]
  unfold out1_2
  rw [View.canon_unit_zero zeros4]
  simp only [View.ld_unit_zero (S := S8x256x8x128) zeros4, View.ld_unit_zero (S := S8x256x128) zeros3]
  funext j
  exact scale_block V c t j

/-- An index of the array is in point t's block iff each coordinate is in the block's range on its axis. -/
theorem mem_blk1 (t : Fin cfg1.N) (i : S32x256x128x128.Idx) :
    i ∈ ((cfg1.win 2).blk t).view.set ↔ ∀ a : Fin 4, win1_2.index t a * S8x256x8x128.size a ≤ (i a).val ∧ (i a).val < win1_2.index t a * S8x256x8x128.size a + S8x256x8x128.size a := by
  show i ∈ ((View.whole main_v3).slice (win1_2.rect t)).set ↔ _
  rw [View.set_slice_whole, Rect.mem_set_unit]
  exact Iff.rfl

/-- Every entry (b, _, h, _) of the array lies in the block of the point 16 * (b / 8) + h / 8. -/
theorem cover1 (i : S32x256x128x128.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 128 := (i 2).isLt
  have hi3 : (i 3).val < 128 := (i 3).isLt
  have hN : cfg1.N = 64 := N_1
  refine ⟨⟨16 * ((i 0).val / 8) + (i 2).val / 8, by rw [hN]; omega⟩, flush1_2 _, ?_⟩
  rw [mem_blk1]
  obtain ⟨-, -, -, -, -, -, -, e7, e8, e9, e10⟩ := index_facts1 ⟨16 * ((i 0).val / 8) + (i 2).val / 8, by rw [hN]; omega⟩
  intro a
  match a with
  | ⟨0, _⟩ => show win1_2.index _ (0 : Fin 4) * 8 ≤ (i 0).val ∧ (i 0).val < win1_2.index _ (0 : Fin 4) * 8 + 8; rw [e7]; show (16 * ((i 0).val / 8) + (i 2).val / 8) / 16 * 8 ≤ _ ∧ _ < (16 * ((i 0).val / 8) + (i 2).val / 8) / 16 * 8 + 8; omega
  | ⟨1, _⟩ => show win1_2.index _ (1 : Fin 4) * 256 ≤ (i 1).val ∧ (i 1).val < win1_2.index _ (1 : Fin 4) * 256 + 256; rw [e8]; omega
  | ⟨2, _⟩ => show win1_2.index _ (2 : Fin 4) * 8 ≤ (i 2).val ∧ (i 2).val < win1_2.index _ (2 : Fin 4) * 8 + 8; rw [e9]; show (16 * ((i 0).val / 8) + (i 2).val / 8) % 16 * 8 ≤ _ ∧ _ < (16 * ((i 0).val / 8) + (i 2).val / 8) % 16 * 8 + 8; omega
  | ⟨3, _⟩ => show win1_2.index _ (3 : Fin 4) * 128 ≤ (i 3).val ∧ (i 3).val < win1_2.index _ (3 : Fin 4) * 128 + 128; rw [e10]; omega

/-- The output array after the region: every entry of x times the broadcast gate at its batch member, channel and
    width. -/
theorem final1 (c : Dev nD) :
    (dat1 V c).arrAt 2 cfg1.N = fun i : S32x256x128x128.Idx => xArr V c i * sArr V c (ix3 (⟨(i 0).val, (i 0).isLt⟩ : Fin 32) (⟨(i 1).val, (i 1).isLt⟩ : Fin 256) (⟨(i 3).val, (i 3).isLt⟩ : Fin 128)) :=
  (dat1 V c).arrAt_eq_of_cover 2 (scaled V c) (fun t _ => flushed1_eq V c t) cover1

/-- The same with the two arrays the region finds named: whatever x and the broadcast gate are at entry, the output
    array ends at their entrywise product along (b, c, w). -/
theorem final1_of (c : Dev nD) (X : S32x256x128x128.Idx → EReal) (S : S32x256x128.Idx → EReal)
    (hX : xArr V c = X) (hS : sArr V c = S) :
    (dat1 V c).arrAt 2 cfg1.N = fun i : S32x256x128x128.Idx => X i * S (ix3 (⟨(i 0).val, (i 0).isLt⟩ : Fin 32) (⟨(i 1).val, (i 1).isLt⟩ : Fin 256) (⟨(i 3).val, (i 3).isLt⟩ : Fin 128)) := by
  subst hX hS
  exact final1 V c

end Cert.KernelIdeal.Hand

end
-- ==== Proof.Bridge.lean ====
/-
  The kernel's result array is the specification's function of the launch memory.

  Region 1 finds x as launched (no region and no host line writes an argument) and, in the array its second window
  reads, the gates' array that region 0 left, broadcast along width by the two host lines: entry (B, c, w) is the gate
  of channel c of batch member B. Region 1's whole-array value is x[B, c, h, w] times that entry, which is G.
-/
import proofs.«155808_j50156628082926_2_alg».proof.Proof.Run
import proofs.«155808_j50156628082926_2_alg».proof.Proof.Region0Value
import proofs.«155808_j50156628082926_2_alg».proof.Proof.Region1Value
import proofs.«155808_j50156628082926_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Region 1 finds x as launched: the host lines do not write it, and region 0 only reads it. -/
theorem V3_main_arg0 (c : Dev nD) : V3 m c main_arg0 = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W2_arr m c 0).trans (((dat0 (V1 m) c).arrAt_in 0 rfl _).trans (A_eq0 (V1 m) c 0))
    _ = m ((c : Thread nD τ).loc main_arg0) := rfl

/-- The launch arrays and what region 1's second window reads, as functions into the extended reals. -/
abbrev xL (c : Dev nD) : S32x256x128x128.Idx → EReal := m ((c : Thread nD τ).loc main_arg0)
abbrev w1L (c : Dev nD) : S16x256.Idx → EReal := m ((c : Thread nD τ).loc main_arg1)
abbrev w2L (c : Dev nD) : S256x16.Idx → EReal := m ((c : Thread nD τ).loc main_arg2)
abbrev sL (c : Dev nD) : S32x256x128.Idx → EReal := V3 m c main_v2

/-- What region 1's second window reads: the two host broadcasts of what region 0 left in the gates' array. -/
theorem sL_eq (c : Dev nD) :
    sL m c = broadcastInDim S32x256x128 ![0, 1, 2] bcast_S32x256x1_S32x256x128_0_1_2
          (broadcastInDim S32x256x1 ![0, 1] bcast_S32x256_S32x256x1_0_1 (gateArr (V1 m) c)) := by
  have e : sL m c = broadcastInDim S32x256x128 ![0, 1, 2] bcast_S32x256x1_S32x256x128_0_1_2
          (broadcastInDim S32x256x1 ![0, 1] bcast_S32x256_S32x256x1_0_1 (W2 m c (Proc.devRef .tc main_v0) : S32x256.Idx → EReal)) := by
    dsimp only [sL, V3, W3, hostOps1]; after_results <;> rfl
  rw [e, show (W2 m c (Proc.devRef .tc main_v0) : S32x256.Idx → EReal) = gateArr (V1 m) c from (W2_arr m c 3).trans (final0 (V1 m) c)]

/-- Read at (B, c, w): the gate of channel c of batch member B. -/
theorem sL_at (c : Dev nD) (B : Fin 32) (ch : Fin 256) (w : Fin 128) :
    sL m c (ix3 B ch w) = Cert.Spec.gate (xL m c) (w1L m c) (w2L m c) B ch := by
  rw [sL_eq]
  refine (broadcastInDim_apply _ bcast_S32x256x1_S32x256x128_0_1_2 _ (ix3 B ch w) (ix3 B ch (0 : Fin 1)) (fun a => match a with
    | ⟨0, _⟩ => by show B.val = if (32 : Nat) = 1 then 0 else B.val; rw [if_neg (by decide)]
    | ⟨1, _⟩ => by show ch.val = if (256 : Nat) = 1 then 0 else ch.val; rw [if_neg (by decide)]
    | ⟨2, _⟩ => by show 0 = if (1 : Nat) = 1 then 0 else w.val; rw [if_pos rfl])).trans ?_
  refine (broadcastInDim_apply _ bcast_S32x256_S32x256x1_0_1 _ (ix3 B ch (0 : Fin 1)) (ix2 B ch) (fun a => match a with
    | ⟨0, _⟩ => by show B.val = if (32 : Nat) = 1 then 0 else B.val; rw [if_neg (by decide)]
    | ⟨1, _⟩ => by show ch.val = if (256 : Nat) = 1 then 0 else ch.val; rw [if_neg (by decide)])).trans ?_
  rfl

/-- THE KERNEL'S VALUE: what region 1's write-backs leave in the result array is G of the launch memory. -/
theorem kernel_value (c : Dev nD) :
    (dat1 (V3 m) c).arrAt 2 cfg1.N = Cert.Spec.G (xL m c) (w1L m c) (w2L m c) := by
  rw [final1_of (V3 m) c (xL m c) (sL m c) (V3_main_arg0 m c) rfl]
  funext i
  unfold Cert.Spec.G
  exact congrArg (xL m c i * ·) (sL_at m c _ _ _)

end Cert.KernelIdeal.Hand

end
-- ==== Proof.RefValue.lean ====
/-
  The reference computes the specification.

  Read stage by stage, the reference is: the sum of x over the two spatial axes (a sum over axes 2 and 3, started from
  the zero word) divided by the word 16384.0; the product of that with w1 over the channels, clipped below at the zero
  word; the product of that with w2 over the bottleneck units, passed through 1 / (1 + exp (-v)); and x times that gate,
  broadcast back over the spatial axes. At an index each stage is the matching function of the specification: the
  spatial mean, the rectified bottleneck, the gate, the result.

  Only the first stage needs an argument. The sum at (b, c) runs over the indices of x whose first two coordinates are
  (b, c); that set is in bijection with the pairs (h, w) through (h, w) ↦ (b, c, h, w), so the sum is the double sum over
  h and w. The rest: 0 + s = s, the word 0x3F800000 is 1, and 1 / (1 + exp (-v)) is the logistic function by definition.
-/
import proofs.«155808_j50156628082926_2_alg».proof.Defs
import proofs.«155808_j50156628082926_2_alg».proof.Proof.Gen.ReferenceIdeal.Read
import proofs.«155808_j50156628082926_2_alg».proof.Proof.Gen.Pre_finite_inputs
import proofs.«155808_j50156628082926_2_alg».proof.Proof.Spec
import Idealize.ShloMosaic.Lib.IdealHost
import Idealize.ShloMosaic.Lib.ValueIdx
import Idealize.ShloMosaic.PureOps.Ideal.Laws
import Idealize.ShloMosaic.PureOps.Reduce

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-! ## The sum over the two spatial axes -/

/-- Dropping the two spatial coordinates of (b, c, h, w) leaves (b, c). -/
theorem drop_ix4 (h : S32x256x128x128.ReducesTo [2, 3] S32x256) (b : Fin 32) (c : Fin 256) (hh w : Fin 128) :
    h.drop (ix4 b c hh w) = ix2 b c := by
  funext a
  match a with
  | ⟨0, _⟩ => exact Fin.ext (h.drop_apply_val_of_eq (ix4 b c hh w) 0 0)
  | ⟨1, _⟩ => exact Fin.ext (h.drop_apply_val_of_eq (ix4 b c hh w) 1 1)

/-- An index whose two leading coordinates are (b, c) is (b, c, h, w) of its own spatial coordinates. -/
theorem eq_ix4_of_drop (h : S32x256x128x128.ReducesTo [2, 3] S32x256) (b : Fin 32) (c : Fin 256)
    (i : S32x256x128x128.Idx) (hi : h.drop i = ix2 b c) :
    ix4 b c (⟨(i 2).val, (i 2).isLt⟩ : Fin 128) (⟨(i 3).val, (i 3).isLt⟩ : Fin 128) = i := by
  have h0 : (i 0).val = b.val :=
    (h.drop_apply_val_of_eq i 0 0).symm.trans (congrArg (fun j : S32x256.Idx => (j 0).val) hi)
  have h1 : (i 1).val = c.val :=
    (h.drop_apply_val_of_eq i 1 1).symm.trans (congrArg (fun j : S32x256.Idx => (j 1).val) hi)
  funext a
  match a with
  | ⟨0, _⟩ => exact Fin.ext h0.symm
  | ⟨1, _⟩ => exact Fin.ext h1.symm
  | ⟨2, _⟩ => rfl
  | ⟨3, _⟩ => rfl

/-- The indices of x that the sum over the two spatial axes collects at (b, c) are the (b, c, h, w), once each: their sum
    is the double sum over h and w. -/
theorem sum_spatial (h : S32x256x128x128.ReducesTo [2, 3] S32x256) (x : S32x256x128x128.Idx → EReal)
    (b : Fin 32) (c : Fin 256) :
    ∑ i ∈ Finset.univ.filter (fun i => h.drop i = ix2 b c), x i = ∑ hh : Fin 128, ∑ w : Fin 128, x (ix4 b c hh w) := by
  rw [← Fintype.sum_prod_type' (f := fun (hh w : Fin 128) => x (ix4 b c hh w))]
  refine Finset.sum_nbij'
    (fun i => ((⟨(i 2).val, (i 2).isLt⟩ : Fin 128), (⟨(i 3).val, (i 3).isLt⟩ : Fin 128)))
    (fun p => ix4 b c p.1 p.2) ?_ ?_ ?_ ?_ ?_
  · intro i _; exact Finset.mem_univ _
  · intro p _; exact Finset.mem_filter.2 ⟨Finset.mem_univ _, drop_ix4 h b c p.1 p.2⟩
  · intro i hi; exact eq_ix4_of_drop h b c i (Finset.mem_filter.1 hi).2
  · intro p _; rfl
  · intro i hi; exact congrArg x (eq_ix4_of_drop h b c i (Finset.mem_filter.1 hi).2).symm

/-! ## The stages at an index -/

/-- The sum over the two spatial axes at (b, c): started from the zero word, it is the double sum over h and w. -/
theorem val_main_v0_apply (x0 : (⟨S32x256x128x128, .f32⟩ : BufTy).Contents (Elt Ideal)) (b : Fin 32) (c : Fin 256) :
    val_main_v0 (F := Ideal) x0 (ix2 b c) = ∑ hh : Fin 128, ∑ w : Fin 128, x0 (ix4 b c hh w) := by
  unfold val_main_v0
  rw [hostReduceAdd_apply]
  unfold Ideal.hostReduceAdd
  rw [sum_spatial, val_main_cst_apply, Ideal.ofBits_def, Ideal.ofBits_zero_f32, zero_add]

/-- The quotient of that sum by the word 16384.0 is the spatial mean. -/
theorem pooled_eq (x0 : (⟨S32x256x128x128, .f32⟩ : BufTy).Contents (Elt Ideal)) (b : Fin 32) (c : Fin 256) :
    val_main_v2 (F := Ideal) x0 (ix2 b c) = Cert.Spec.pooled x0 b c := by
  rw [val_main_v2_apply, val_main_v0_apply, val_main_v1_apply, val_main_cst_0_apply]
  rfl

/-- The first product, clipped below at the zero word, is the rectified bottleneck. -/
theorem hidden_eq (x0 : (⟨S32x256x128x128, .f32⟩ : BufTy).Contents (Elt Ideal))
    (x1 : (⟨S16x256, .f32⟩ : BufTy).Contents (Elt Ideal)) (b : Fin 32) (r : Fin 16) :
    val_main_v4 (F := Ideal) x0 x1 (ix2 b r) = Cert.Spec.hidden x0 x1 b r := by
  have el : ∀ k : Fin 256, lidx_main_v3 (ix2 b r) k = ix2 b k := fun k =>
    funext fun a => by match a with | ⟨0, _⟩ => rfl | ⟨1, _⟩ => rfl
  have er : ∀ k : Fin 256, ridx_main_v3 (ix2 b r) k = ix2 r k := fun k =>
    funext fun a => by match a with | ⟨0, _⟩ => rfl | ⟨1, _⟩ => rfl
  rw [val_main_v4_apply, val_main_v3_apply, val_main_call0_v0_apply, val_main_call0_cst_apply]
  simp only [el, er, pooled_eq]
  rfl

/-- The second product, passed through 1 / (1 + exp (-v)), is the gate. -/
theorem gate_eq (x0 : (⟨S32x256x128x128, .f32⟩ : BufTy).Contents (Elt Ideal))
    (x1 : (⟨S16x256, .f32⟩ : BufTy).Contents (Elt Ideal)) (x2 : (⟨S256x16, .f32⟩ : BufTy).Contents (Elt Ideal))
    (b : Fin 32) (c : Fin 256) :
    val_main_v11 (F := Ideal) x0 x1 x2 (ix2 b c) = Cert.Spec.gate x0 x1 x2 b c := by
  have el : ∀ k : Fin 16, lidx_main_v5 (ix2 b c) k = ix2 b k := fun k =>
    funext fun a => by match a with | ⟨0, _⟩ => rfl | ⟨1, _⟩ => rfl
  have er : ∀ k : Fin 16, ridx_main_v5 (ix2 b c) k = ix2 c k := fun k =>
    funext fun a => by match a with | ⟨0, _⟩ => rfl | ⟨1, _⟩ => rfl
  rw [val_main_v11_apply, val_main_v10_apply, val_main_cst_2_apply, val_main_v9_apply, val_main_v8_apply,
    val_main_cst_1_apply, val_main_v7_apply, val_main_v6_apply, val_main_v5_apply]
  simp only [el, er, hidden_eq, Ideal.ofBits_def, Ideal.ofBits_one_f32]
  rfl

/-! ## The result -/

/-- the reference's result stage is the specification -/
theorem ref_eq (x0 : (⟨S32x256x128x128, .f32⟩ : BufTy).Contents (Elt Ideal)) (x1 : (⟨S16x256, .f32⟩ : BufTy).Contents (Elt Ideal)) (x2 : (⟨S256x16, .f32⟩ : BufTy).Contents (Elt Ideal)) :
    Cert.ReferenceIdeal.Read.val_main_v14 (F := Ideal) x0 x1 x2 = Cert.Spec.G x0 x1 x2 := by
  funext i
  obtain ⟨b, c, hh, w, rfl⟩ : ∃ (b : Fin 32) (c : Fin 256) (hh : Fin 128) (w : Fin 128), i = ix4 b c hh w :=
    ⟨i 0, i 1, i 2, i 3, eq_ix4 i⟩
  have e : idx_main_v12 (idx_main_v13 (ix4 b c hh w)) = ix2 b c :=
    funext fun a => by match a with | ⟨0, _⟩ => rfl | ⟨1, _⟩ => rfl
  rw [val_main_v14_apply, val_main_v13_apply, val_main_v12_apply, e, gate_eq]
  rfl

/-- the reference's run with its result named by the specification -/
theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v14) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run Cert.ReferenceIdeal.defs _ _).mono
    (fun _ h c => ⟨(h c).1.trans ((val_main_v14_eq (F := Ideal) _ _ _).trans (ref_eq _ _ _)), (h c).2⟩)
    (Cert.ReferenceIdeal.Value.run (F := Ideal) m ρ)

/-- the reference's frame: its run with the result dropped -/
theorem frame_ri : Cert.frame_ReferenceIdeal :=
  fun m ρ _ => (θ_run Cert.ReferenceIdeal.defs _ _).mono (fun _ h c => (h c).2) (Cert.ReferenceIdeal.Value.run (F := Ideal) m ρ)

end Cert.ReferenceIdeal.RefValue

end
-- ==== Proof.lean ====
/-
  The five claims of the certificate.

  The two kernel programs (the word-level one and its reading at the ideal instance) run to the end, fault nowhere and
  leave their arguments unchanged: the run over region 0, the two host broadcasts and region 1. The reference's frame is
  its run with the result dropped. The ideal pass rewrote nothing, so the idealization is the program's own text. At the
  ideal instance both programs end with the same result array: every entry of x scaled by its channel's gate, the
  gate the logistic function of the second product of the rectified first product of the channels' spatial means. The
  kernel forms the mean as the sum over width of the sums over eight height tiles, times 2^-14; the reference as the sum
  over all positions divided by 16384: the same extended real, by commutativity and associativity of addition alone and
  because dividing by 16384 is multiplying by its inverse on every extended real.
-/
import proofs.«155808_j50156628082926_2_alg».proof.Defs
import proofs.«155808_j50156628082926_2_alg».proof.Proof.Gen.Kernel
import proofs.«155808_j50156628082926_2_alg».proof.Proof.Gen.KernelIdeal
import proofs.«155808_j50156628082926_2_alg».proof.Proof.Gen.ReferenceIdeal
import proofs.«155808_j50156628082926_2_alg».proof.Proof.Gen.Pre_finite_inputs
import proofs.«155808_j50156628082926_2_alg».proof.Proof.RunBits
import proofs.«155808_j50156628082926_2_alg».proof.Proof.Bridge
import proofs.«155808_j50156628082926_2_alg».proof.Proof.RefValue
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program's frame. -/
theorem frame_k : Cert.frame_Kernel := fun m ρ _ =>
  (θ_run Cert.Kernel.defs _ _).mono (fun _ h c => (h c).2) (Cert.Kernel.Hand.run_all (F := Bits) m ρ)

/-- The idealized kernel program's frame. -/
theorem frame_ki : Cert.frame_KernelIdeal := fun m ρ _ =>
  (θ_run Cert.KernelIdeal.defs _ _).mono (fun _ h c => (h c).2) (Cert.KernelIdeal.Hand.run_all (F := Ideal) m ρ)

/-- The reference's frame. -/
theorem frame_ri : Cert.frame_ReferenceIdeal := Cert.ReferenceIdeal.RefValue.frame_ri

/-- The ideal pass rewrote nothing. -/
theorem preserves : Cert.preserves_Kernel_KernelIdeal := trivial

/-- At the ideal instance, from memories agreeing on the arguments, both programs end with the result array at G of
    the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Hand.kernel_value m c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
